-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S2000000 : Shape := ⟨1, ![2000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S2000000 : S_.BroadcastsInDim S2000000 (![] : Fin 0 → Fin S2000000.rank)
  reducesTo_S2000000_S_d0 : S2000000.ReducesTo [0] S_

variable [Facts]

def fn_part2 {F : FTy → Type} [FloatOps F] (main_arg7 : FVec F S2000000 .f32) (main_v33 : IVec S_ 1) : IVec S_ 1 :=
  let main_v34 : FVec F S2000000 .f32 := Host.absf main_arg7
  let main_cst_12 : FVec F S_ .f32 := constant S_ .f32 0x7F800000#32
  let main_v35 : FVec F S2000000 .f32 := broadcastInDim S2000000 ![] bcast_S_S2000000 main_cst_12
  let main_v36 : IVec S2000000 1 := cmpf .olt main_v34 main_v35
  let main_c_13 : IVec S_ 1 := constantI S_ 1 1#1
  let main_v37 : IVec S_ 1 := (fun x v => Host.reduce IntOp.andi x v reducesTo_S2000000_S_d0 h_S_) main_v36 main_c_13
  let main_v38 : IVec S_ 1 := andi main_v33 main_v37
  main_v38

def fn_part1 {F : FTy → Type} [FloatOps F] (main_arg4 : FVec F S1000000 .f32) (main_arg5 : FVec F S1000000 .f32) (main_arg6 : FVec F S1000000 .f32) (main_arg7 : FVec F S2000000 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S1000000 .f32 := Host.absf main_arg6
  let main_cst_10 : FVec F S_ .f32 := constant S_ .f32 0x7F800000#32
  let main_v30 : FVec F S1000000 .f32 := broadcastInDim S1000000 ![] bcast_S_S1000000 main_cst_10
  let main_v31 : IVec S1000000 1 := cmpf .olt main_v29 main_v30
  let main_c_11 : IVec S_ 1 := constantI S_ 1 1#1
  let main_v32 : IVec S_ 1 := (fun x v => Host.reduce IntOp.andi x v reducesTo_S1000000_S_d0 h_S_) main_v31 main_c_11
  let main_v33 : IVec S_ 1 := andi main_v28 main_v32
  fn_part2 (F := F) main_arg7 main_v33

def fn {F : FTy → Type} [FloatOps F] (main_arg0 : FVec F S1000000 .f32) (main_arg1 : FVec F S2000000 .f32) (main_arg2 : FVec F S2000000 .f32) (main_arg3 : FVec F S1000000 .f32) (main_arg4 : FVec F S1000000 .f32) (main_arg5 : FVec F S1000000 .f32) (main_arg6 : FVec F S1000000 .f32) (main_arg7 : FVec F S2000000 .f32) (main_arg8 : IVec S2000000 32) (main_arg9 : IVec S2000000 32) (main_arg10 : IVec S1000000 1) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S1000000 .f32 := Host.absf main_arg3
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_arg5 main_arg6 main_arg7 main_v13 main_v16
-- ==== Kernel.lean ====
abbrev S1000000 : Shape := ⟨1, ![1000000]⟩
abbrev S2000000 : Shape := ⟨1, ![2000000]⟩
abbrev S_ : Shape := ⟨0, ![]⟩
abbrev S2000000x1 : Shape := ⟨2, ![2000000, 1]⟩
abbrev S1048576 : Shape := ⟨1, ![1048576]⟩
abbrev S8192x128 : Shape := ⟨2, ![8192, 128]⟩
abbrev S1024x128 : Shape := ⟨2, ![1024, 128]⟩
abbrev S2097152 : Shape := ⟨1, ![2097152]⟩
abbrev S16384x128 : Shape := ⟨2, ![16384, 128]⟩

abbrev nBuf : Space → Nat
  | .hbm => 167
  | .vmem => 46
  | .smem => 0
  | _ => 0

abbrev hbmTy0_0 (i : Nat) : BufTy := match i % 128 with
  | 0 => ⟨S1000000, .f32⟩
  | 1 => ⟨S2000000, .f32⟩
  | 2 => ⟨S2000000, .f32⟩
  | 3 => ⟨S1000000, .f32⟩
  | 4 => ⟨S1000000, .f32⟩
  | 5 => ⟨S1000000, .f32⟩
  | 6 => ⟨S1000000, .f32⟩
  | 7 => ⟨S2000000, .f32⟩
  | 8 => ⟨S2000000, .i32⟩
  | 9 => ⟨S2000000, .i32⟩
  | 10 => ⟨S1000000, .i1⟩
  | 11 => ⟨S_, .f32⟩
  | 12 => ⟨S2000000, .f32⟩
  | 13 => ⟨S_, .f32⟩
  | 14 => ⟨S1000000, .f32⟩
  | 15 => ⟨S2000000x1, .i32⟩
  | 16 => ⟨S1000000, .f32⟩
  | 17 => ⟨S_, .f32⟩
  | 18 => ⟨S1000000, .f32⟩
  | 19 => ⟨S2000000x1, .i32⟩
  | 20 => ⟨S1000000, .f32⟩
  | 21 => ⟨S1000000, .f32⟩
  | 22 => ⟨S_, .f32⟩
  | 23 => ⟨S1000000, .f32⟩
  | 24 => ⟨S2000000x1, .i32⟩
  | 25 => ⟨S1000000, .f32⟩
  | 26 => ⟨S_, .f32⟩
  | 27 => ⟨S1000000, .f32⟩
  | 28 => ⟨S2000000x1, .i32⟩
  | 29 => ⟨S1000000, .f32⟩
  | 30 => ⟨S1000000, .f32⟩
  | 31 => ⟨S_, .f32⟩
  | 32 => ⟨S1000000, .f32⟩
  | 33 => ⟨S1000000, .f32⟩
  | 34 => ⟨S1000000, .f32⟩
  | 35 => ⟨S1000000, .i32⟩
  | 36 => ⟨S_, .i32⟩
  | 37 => ⟨S_, .f32⟩
  | 38 => ⟨S1048576, .f32⟩
  | 39 => ⟨S8192x128, .f32⟩
  | 40 => ⟨S_, .i32⟩
  | 41 => ⟨S_, .f32⟩
  | 42 => ⟨S1048576, .f32⟩
  | 43 => ⟨S8192x128, .f32⟩
  | 44 => ⟨S_, .i32⟩
  | 45 => ⟨S_, .i32⟩
  | 46 => ⟨S1048576, .i32⟩
  | 47 => ⟨S8192x128, .i32⟩
  | 48 => ⟨S_, .i32⟩
  | 49 => ⟨S_, .f32⟩
  | 50 => ⟨S1048576, .f32⟩
  | 51 => ⟨S8192x128, .f32⟩
  | 52 => ⟨S_, .i32⟩
  | 53 => ⟨S_, .f32⟩
  | 54 => ⟨S1048576, .f32⟩
  | 55 => ⟨S8192x128, .f32⟩
  | 56 => ⟨S_, .i32⟩
  | 57 => ⟨S_, .f32⟩
  | 58 => ⟨S1048576, .f32⟩
  | 59 => ⟨S8192x128, .f32⟩
  | 60 => ⟨S8192x128, .f32⟩
  | 61 => ⟨S8192x128, .f32⟩
  | 62 => ⟨S8192x128, .f32⟩
  | 63 => ⟨S8192x128, .f32⟩
  | 64 => ⟨S1048576, .f32⟩
  | 65 => ⟨S1000000, .f32⟩
  | 66 => ⟨S1048576, .f32⟩
  | 67 => ⟨S1000000, .f32⟩
  | 68 => ⟨S1048576, .f32⟩
  | 69 => ⟨S1000000, .f32⟩
  | 70 => ⟨S1048576, .f32⟩
  | 71 => ⟨S1000000, .f32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000, .f32⟩
  | 81 => ⟨S_, .i32⟩
  | 82 => ⟨S2000000, .i32⟩
  | 83 => ⟨S2000000, .i1⟩
  | 84 => ⟨S_, .i32⟩
  | 85 => ⟨S2000000, .i32⟩
  | 86 => ⟨S2000000, .i32⟩
  | 87 => ⟨S2000000, .i32⟩
  | 88 => ⟨S2000000x1, .i32⟩
  | 89 => ⟨S2000000, .f32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2000000, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S2000000, .f32⟩
  | 108 => ⟨S_, .i32⟩
  | 109 => ⟨S_, .f32⟩
  | 110 => ⟨S2097152, .f32⟩
  | 111 => ⟨S16384x128, .f32⟩
  | 112 => ⟨S_, .i32⟩
  | 113 => ⟨S_, .f32⟩
  | 114 => ⟨S2097152, .f32⟩
  | 115 => ⟨S16384x128, .f32⟩
  | 116 => ⟨S_, .i32⟩
  | 117 => ⟨S_, .f32⟩
  | 118 => ⟨S2097152, .f32⟩
  | 119 => ⟨S16384x128, .f32⟩
  | 120 => ⟨S_, .i32⟩
  | 121 => ⟨S_, .f32⟩
  | 122 => ⟨S2097152, .f32⟩
  | 123 => ⟨S16384x128, .f32⟩
  | 124 => ⟨S_, .i32⟩
  | 125 => ⟨S_, .f32⟩
  | 126 => ⟨S2097152, .f32⟩
  | 127 => ⟨S16384x128, .f32⟩
  | _ => ⟨S1000000, .f32⟩

abbrev hbmTy0_1 (i : Nat) : BufTy := match i % 128 with
  | 0 => ⟨S_, .i32⟩
  | 1 => ⟨S_, .f32⟩
  | 2 => ⟨S2097152, .f32⟩
  | 3 => ⟨S16384x128, .f32⟩
  | 4 => ⟨S16384x128, .f32⟩
  | 5 => ⟨S2097152, .f32⟩
  | 6 => ⟨S2000000, .f32⟩
  | 7 => ⟨S_, .f32⟩
  | 8 => ⟨S1000000, .f32⟩
  | 9 => ⟨S2000000x1, .i32⟩
  | 10 => ⟨S1000000, .f32⟩
  | 11 => ⟨S_, .f32⟩
  | 12 => ⟨S1000000, .f32⟩
  | 13 => ⟨S2000000x1, .i32⟩
  | 14 => ⟨S1000000, .f32⟩
  | 15 => ⟨S1000000, .f32⟩
  | 16 => ⟨S_, .i32⟩
  | 17 => ⟨S_, .f32⟩
  | 18 => ⟨S1048576, .f32⟩
  | 19 => ⟨S8192x128, .f32⟩
  | 20 => ⟨S_, .i32⟩
  | 21 => ⟨S_, .i32⟩
  | 22 => ⟨S1048576, .i32⟩
  | 23 => ⟨S8192x128, .i32⟩
  | 24 => ⟨S_, .i32⟩
  | 25 => ⟨S_, .f32⟩
  | 26 => ⟨S1048576, .f32⟩
  | 27 => ⟨S8192x128, .f32⟩
  | 28 => ⟨S_, .i32⟩
  | 29 => ⟨S_, .f32⟩
  | 30 => ⟨S1048576, .f32⟩
  | 31 => ⟨S8192x128, .f32⟩
  | 32 => ⟨S_, .i32⟩
  | 33 => ⟨S_, .f32⟩
  | 34 => ⟨S1048576, .f32⟩
  | 35 => ⟨S8192x128, .f32⟩
  | 36 => ⟨S8192x128, .f32⟩
  | 37 => ⟨S1048576, .f32⟩
  | 38 => ⟨S1000000, .f32⟩
  | _ => ⟨S1000000, .f32⟩

abbrev hbmTy (i : Nat) : BufTy := match i / 128 with
  | 0 => hbmTy0_0 i
  | 1 => hbmTy0_1 i
  | _ => ⟨S1000000, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .i32⟩
  | .local _ .vmem, ⟨5, _⟩ => ⟨S1024x128, .i32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .i32⟩
  | .local _ .vmem, ⟨37, _⟩ => ⟨S1024x128, .i32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S1024x128, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_call1_v0 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_call3_v0 : Ref sig .tc := ⟨.hbm, 49, rfl⟩
abbrev main_v25 : Ref sig .tc := ⟨.hbm, 50, rfl⟩
abbrev main_v26 : Ref sig .tc := ⟨.hbm, 51, rfl⟩
abbrev main_c_8 : Ref sig .tc := ⟨.hbm, 52, rfl⟩
abbrev main_call4_v0 : Ref sig .tc := ⟨.hbm, 53, rfl⟩
abbrev main_v27 : Ref sig .tc := ⟨.hbm, 54, rfl⟩
abbrev main_v28 : Ref sig .tc := ⟨.hbm, 55, rfl⟩
abbrev main_c_9 : Ref sig .tc := ⟨.hbm, 56, rfl⟩
abbrev main_call5_v0 : Ref sig .tc := ⟨.hbm, 57, rfl⟩
abbrev main_v29 : Ref sig .tc := ⟨.hbm, 58, rfl⟩
abbrev main_v30 : Ref sig .tc := ⟨.hbm, 59, rfl⟩
abbrev main_v31_0 : Ref sig .tc := ⟨.hbm, 60, rfl⟩
abbrev main_v31_1 : Ref sig .tc := ⟨.hbm, 61, rfl⟩
abbrev main_v31_2 : Ref sig .tc := ⟨.hbm, 62, rfl⟩
abbrev main_v31_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_c_11 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_12 : Ref sig .tc := ⟨.hbm, 81, rfl⟩
abbrev main_v47 : Ref sig .tc := ⟨.hbm, 82, rfl⟩
abbrev main_v48 : Ref sig .tc := ⟨.hbm, 83, rfl⟩
abbrev main_c_13 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_14 : Ref sig .tc := ⟨.hbm, 90, rfl⟩
abbrev main_v54 : Ref sig .tc := ⟨.hbm, 91, rfl⟩
abbrev main_v55 : Ref sig .tc := ⟨.hbm, 92, rfl⟩
abbrev main_c_15 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_16 : Ref sig .tc := ⟨.hbm, 99, rfl⟩
abbrev main_v61 : Ref sig .tc := ⟨.hbm, 100, rfl⟩
abbrev main_v62 : Ref sig .tc := ⟨.hbm, 101, rfl⟩
abbrev main_c_17 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_18 : Ref sig .tc := ⟨.hbm, 108, rfl⟩
abbrev main_call6_v0 : Ref sig .tc := ⟨.hbm, 109, rfl⟩
abbrev main_v68 : Ref sig .tc := ⟨.hbm, 110, rfl⟩
abbrev main_v69 : Ref sig .tc := ⟨.hbm, 111, rfl⟩
abbrev main_c_19 : Ref sig .tc := ⟨.hbm, 112, rfl⟩
abbrev main_call7_v0 : Ref sig .tc := ⟨.hbm, 113, rfl⟩
abbrev main_v70 : Ref sig .tc := ⟨.hbm, 114, rfl⟩
abbrev main_v71 : Ref sig .tc := ⟨.hbm, 115, rfl⟩
abbrev main_c_20 : Ref sig .tc := ⟨.hbm, 116, rfl⟩
abbrev main_call8_v0 : Ref sig .tc := ⟨.hbm, 117, rfl⟩
abbrev main_v72 : Ref sig .tc := ⟨.hbm, 118, rfl⟩
abbrev main_v73 : Ref sig .tc := ⟨.hbm, 119, rfl⟩
abbrev main_c_21 : Ref sig .tc := ⟨.hbm, 120, rfl⟩
abbrev main_call9_v0 : Ref sig .tc := ⟨.hbm, 121, rfl⟩
abbrev main_v74 : Ref sig .tc := ⟨.hbm, 122, rfl⟩
abbrev main_v75 : Ref sig .tc := ⟨.hbm, 123, rfl⟩
abbrev main_c_22 : Ref sig .tc := ⟨.hbm, 124, rfl⟩
abbrev main_call10_v0 : Ref sig .tc := ⟨.hbm, 125, rfl⟩
abbrev main_v76 : Ref sig .tc := ⟨.hbm, 126, rfl⟩
abbrev main_v77 : Ref sig .tc := ⟨.hbm, 127, rfl⟩
abbrev main_c_23 : Ref sig .tc := ⟨.hbm, 128, rfl⟩
abbrev main_call11_v0 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_24 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_25 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_c_26 : Ref sig .tc := ⟨.hbm, 144, rfl⟩
abbrev main_call12_v0 : Ref sig .tc := ⟨.hbm, 145, rfl⟩
abbrev main_v90 : Ref sig .tc := ⟨.hbm, 146, rfl⟩
abbrev main_v91 : Ref sig .tc := ⟨.hbm, 147, rfl⟩
abbrev main_c_27 : Ref sig .tc := ⟨.hbm, 148, rfl⟩
abbrev main_call13_v0 : Ref sig .tc := ⟨.hbm, 149, rfl⟩
abbrev main_v92 : Ref sig .tc := ⟨.hbm, 150, rfl⟩
abbrev main_v93 : Ref sig .tc := ⟨.hbm, 151, rfl⟩
abbrev main_c_28 : Ref sig .tc := ⟨.hbm, 152, rfl⟩
abbrev main_call14_v0 : Ref sig .tc := ⟨.hbm, 153, rfl⟩
abbrev main_v94 : Ref sig .tc := ⟨.hbm, 154, rfl⟩
abbrev main_v95 : Ref sig .tc := ⟨.hbm, 155, rfl⟩
abbrev main_c_29 : Ref sig .tc := ⟨.hbm, 156, rfl⟩
abbrev main_call15_v0 : Ref sig .tc := ⟨.hbm, 157, rfl⟩
abbrev main_v96 : Ref sig .tc := ⟨.hbm, 158, rfl⟩
abbrev main_v97 : Ref sig .tc := ⟨.hbm, 159, rfl⟩
abbrev main_c_30 : Ref sig .tc := ⟨.hbm, 160, rfl⟩
abbrev main_call16_v0 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem4_1 : DmaSem sig := 43
abbrev cc2_sem5_0 : DmaSem sig := 44
abbrev cc2_sem5_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S2000000 : S_.BroadcastsInDim S2000000 (![] : Fin 0 → Fin S2000000.rank)
  bcast_S_S1000000 : S_.BroadcastsInDim S1000000 (![] : Fin 0 → Fin S1000000.rank)
  bcast_S2000000_S2000000x1_0 : S2000000.BroadcastsInDim S2000000x1 (![0] : Fin 1 → Fin S2000000x1.rank)
  natLt_1_32 : 1 < 32
  pads_S1000000_S1048576_0485760 : S1000000.Pads (![0] : Fin 1 → Nat) ![48576] ![0] S1048576
  h_S_ : 0 < S_.numel
  shapeCasts_S1048576_S8192x128 : S1048576.ShapeCasts S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8192x128_S1048576 : S8192x128.ShapeCasts S1048576
  slices_S1048576_S1000000_0 : S1048576.Slices ![0] S1000000
  pads_S2000000_S2097152_0971520 : S2000000.Pads (![0] : Fin 1 → Nat) ![97152] ![0] S2097152
  shapeCasts_S2097152_S16384x128 : S2097152.ShapeCasts S16384x128
  shapeCasts_S16384x128_S2097152 : S16384x128.ShapeCasts S2097152
  slices_S2097152_S2000000_0 : S2097152.Slices ![0] S2000000
  scatter_S1000000_S2000000x1_S2000000_n_0_0_1_wf : ScatterDims.WF S1000000 S2000000x1 S2000000 [] [0] [0] 1
  gather_S1000000_S2000000x1_S2000000_n_0_n_n_0_1_1_wf : GatherDims.WF S1000000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .i32 = 32 ∨ (Rect.block (s := S8192x128) S1024x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .f32 = 32 ∨ (Rect.block (s := S8192x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .f32 = 32 ∨ (Rect.block (s := S8192x128) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S8192x128.size a
  hwx0_8 : ∀ i : grid0.Coords, EltTy.bits .f32 = 32 ∨ (Rect.block (s := S8192x128) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S8192x128.size a
  hwx0_9 : ∀ i : grid0.Coords, EltTy.bits .f32 = 32 ∨ (Rect.block (s := S8192x128) S1024x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .f32 = 32 ∨ (Rect.block (s := S16384x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .f32 = 32 ∨ (Rect.block (s := S16384x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S16384x128.size a
  hwx1_3 : ∀ i : grid1.Coords, EltTy.bits .f32 = 32 ∨ (Rect.block (s := S16384x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S16384x128.size a
  hwx1_4 : ∀ i : grid1.Coords, EltTy.bits .f32 = 32 ∨ (Rect.block (s := S16384x128) S1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S16384x128.size a
  hwx1_5 : ∀ i : grid1.Coords, EltTy.bits .f32 = 32 ∨ (Rect.block (s := S16384x128) S1024x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S16384x128.size a
  hwx1_6 : ∀ i : grid1.Coords, EltTy.bits .f32 = 32 ∨ (Rect.block (s := S16384x128) S1024x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .i32 = 32 ∨ (Rect.block (s := S8192x128) S1024x128.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S8192x128.size a
  hwx2_4 : ∀ i : grid2.Coords, EltTy.bits .f32 = 32 ∨ (Rect.block (s := S8192x128) S1024x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S8192x128.size a
  hwx2_5 : ∀ i : grid2.Coords, EltTy.bits .f32 = 32 ∨ (Rect.block (s := S8192x128) S1024x128.size (cc2_transform_5 i) (hinb2_5 i)).WholeWords (EltTy.packing .f32)

variable [Facts₀]

def scatter_S1000000_S2000000x1_S2000000_n_0_0_1 : ScatterDims S1000000 S2000000x1 S2000000 where
  updateWindowDims := []
  insertedWindowDims := [0]
  scatterDimsToOperandDims := [0]
  indexVectorDim := 1
  wf := scatter_S1000000_S2000000x1_S2000000_n_0_0_1_wf
def gather_S1000000_S2000000x1_S2000000_n_0_n_n_0_1_1 : GatherDims S1000000 S2000000x1 S2000000 where
  offsetDims := []
  collapsedSliceDims := [0]
  operandBatchingDims := []
  startIndicesBatchingDims := []
  startIndexMap := [0]
  indexVectorDim := 1
  sliceSizes := ![1]
  wf := gather_S1000000_S2000000x1_S2000000_n_0_n_n_0_1_1_wf

abbrev win0_0 : Pipeline.Window sig grid0 :=
  Pipeline.Window.ofSpec (Memref.whole main_v20) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31_0) S1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v31_1) S1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v31_2) S1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v31_3) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v69) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v75) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v77) S1024x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v79) S1024x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v80) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v91) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v93) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v95) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v97) S1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v99) S1024x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v100) S1024x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1000000 : Shape := ⟨1, ![1000000]⟩
abbrev S2000000 : Shape := ⟨1, ![2000000]⟩
abbrev S_ : Shape := ⟨0, ![]⟩
abbrev S2000000x1 : Shape := ⟨2, ![2000000, 1]⟩

abbrev nBuf : Space → Nat
  | .hbm => 155
  | .vmem => 0
  | .smem => 0
  | _ => 0

abbrev hbmTy0_0 (i : Nat) : BufTy := match i % 128 with
  | 0 => ⟨S1000000, .f32⟩
  | 1 => ⟨S2000000, .f32⟩
  | 2 => ⟨S2000000, .f32⟩
  | 3 => ⟨S1000000, .f32⟩
  | 4 => ⟨S1000000, .f32⟩
  | 5 => ⟨S1000000, .f32⟩
  | 6 => ⟨S1000000, .f32⟩
  | 7 => ⟨S2000000, .f32⟩
  | 8 => ⟨S2000000, .i32⟩
  | 9 => ⟨S2000000, .i32⟩
  | 10 => ⟨S1000000, .i1⟩
  | 11 => ⟨S1000000, .f32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000, .f32⟩
  | 30 => ⟨S2000000, .f32⟩
  | 31 => ⟨S2000000, .f32⟩
  | 32 => ⟨S1000000, .f32⟩
  | 33 => ⟨S_, .f32⟩
  | 34 => ⟨S1000000, .f32⟩
  | 35 => ⟨S1000000, .f32⟩
  | 36 => ⟨S1000000, .f32⟩
  | 37 => ⟨S1000000, .i1⟩
  | 38 => ⟨S1000000, .f32⟩
  | 39 => ⟨S_, .f32⟩
  | 40 => ⟨S1000000, .f32⟩
  | 41 => ⟨S1000000, .i1⟩
  | 42 => ⟨S_, .f32⟩
  | 43 => ⟨S_, .f32⟩
  | 44 => ⟨S1000000, .f32⟩
  | 45 => ⟨S1000000, .f32⟩
  | 46 => ⟨S_, .f32⟩
  | 47 => ⟨S2000000, .f32⟩
  | 48 => ⟨S_, .f32⟩
  | 49 => ⟨S1000000, .f32⟩
  | 50 => ⟨S2000000x1, .i32⟩
  | 51 => ⟨S1000000, .f32⟩
  | 52 => ⟨S_, .f32⟩
  | 53 => ⟨S1000000, .f32⟩
  | 54 => ⟨S2000000x1, .i32⟩
  | 55 => ⟨S1000000, .f32⟩
  | 56 => ⟨S1000000, .f32⟩
  | 57 => ⟨S_, .f32⟩
  | 58 => ⟨S1000000, .f32⟩
  | 59 => ⟨S2000000x1, .i32⟩
  | 60 => ⟨S1000000, .f32⟩
  | 61 => ⟨S_, .f32⟩
  | 62 => ⟨S1000000, .f32⟩
  | 63 => ⟨S2000000x1, .i32⟩
  | 64 => ⟨S1000000, .f32⟩
  | 65 => ⟨S1000000, .f32⟩
  | 66 => ⟨S_, .f32⟩
  | 67 => ⟨S1000000, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S1000000, .f32⟩
  | 74 => ⟨S1000000, .f32⟩
  | 75 => ⟨S1000000, .f32⟩
  | 76 => ⟨S_, .f32⟩
  | 77 => ⟨S1000000, .f32⟩
  | 78 => ⟨S1000000, .f32⟩
  | 79 => ⟨S1000000, .f32⟩
  | 80 => ⟨S1000000, .f32⟩
  | 81 => ⟨S_, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S1000000, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000, .f32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S2000000x1, .i32⟩
  | 105 => ⟨S2000000, .f32⟩
  | 106 => ⟨S2000000, .f32⟩
  | 107 => ⟨S_, .f32⟩
  | 108 => ⟨S2000000, .f32⟩
  | 109 => ⟨S2000000, .f32⟩
  | 110 => ⟨S2000000, .f32⟩
  | 111 => ⟨S2000000, .f32⟩
  | 112 => ⟨S_, .f32⟩
  | 113 => ⟨S2000000, .f32⟩
  | 114 => ⟨S2000000, .f32⟩
  | 115 => ⟨S_, .f32⟩
  | 116 => ⟨S2000000, .f32⟩
  | 117 => ⟨S2000000, .f32⟩
  | 118 => ⟨S_, .f32⟩
  | 119 => ⟨S2000000, .f32⟩
  | 120 => ⟨S2000000, .f32⟩
  | 121 => ⟨S_, .f32⟩
  | 122 => ⟨S2000000, .f32⟩
  | 123 => ⟨S2000000, .f32⟩
  | 124 => ⟨S2000000, .f32⟩
  | 125 => ⟨S_, .f32⟩
  | 126 => ⟨S1000000, .f32⟩
  | 127 => ⟨S1000000, .f32⟩
  | _ => ⟨S1000000, .f32⟩

abbrev hbmTy0_1 (i : Nat) : BufTy := match i % 128 with
  | 0 => ⟨S_, .f32⟩
  | 1 => ⟨S1000000, .f32⟩
  | 2 => ⟨S1000000, .f32⟩
  | 3 => ⟨S1000000, .f32⟩
  | 4 => ⟨S2000000, .f32⟩
  | 5 => ⟨S2000000, .f32⟩
  | 6 => ⟨S2000000, .f32⟩
  | 7 => ⟨S_, .f32⟩
  | 8 => ⟨S1000000, .f32⟩
  | 9 => ⟨S2000000x1, .i32⟩
  | 10 => ⟨S1000000, .f32⟩
  | 11 => ⟨S_, .f32⟩
  | 12 => ⟨S1000000, .f32⟩
  | 13 => ⟨S2000000x1, .i32⟩
  | 14 => ⟨S1000000, .f32⟩
  | 15 => ⟨S1000000, .f32⟩
  | 16 => ⟨S_, .f32⟩
  | 17 => ⟨S_, .f32⟩
  | 18 => ⟨S1000000, .f32⟩
  | 19 => ⟨S1000000, .f32⟩
  | 20 => ⟨S_, .f32⟩
  | 21 => ⟨S_, .f32⟩
  | 22 => ⟨S1000000, .f32⟩
  | 23 => ⟨S1000000, .f32⟩
  | 24 => ⟨S1000000, .f32⟩
  | 25 => ⟨S1000000, .f32⟩
  | 26 => ⟨S1000000, .f32⟩
  | _ => ⟨S1000000, .f32⟩

abbrev hbmTy (i : Nat) : BufTy := match i / 128 with
  | 0 => hbmTy0_0 i
  | 1 => hbmTy0_1 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_call2_v0 : Ref sig .tc := ⟨.hbm, 43, rfl⟩
abbrev main_call2_v1 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_19 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_20 : Ref sig .tc := ⟨.hbm, 112, rfl⟩
abbrev main_v77 : Ref sig .tc := ⟨.hbm, 113, rfl⟩
abbrev main_v78 : Ref sig .tc := ⟨.hbm, 114, rfl⟩
abbrev main_cst_21 : Ref sig .tc := ⟨.hbm, 115, rfl⟩
abbrev main_v79 : Ref sig .tc := ⟨.hbm, 116, rfl⟩
abbrev main_v80 : Ref sig .tc := ⟨.hbm, 117, rfl⟩
abbrev main_cst_22 : Ref sig .tc := ⟨.hbm, 118, rfl⟩
abbrev main_v81 : Ref sig .tc := ⟨.hbm, 119, rfl⟩
abbrev main_v82 : Ref sig .tc := ⟨.hbm, 120, rfl⟩
abbrev main_cst_23 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_24 : Ref sig .tc := ⟨.hbm, 125, rfl⟩
abbrev main_v86 : Ref sig .tc := ⟨.hbm, 126, rfl⟩
abbrev main_v87 : Ref sig .tc := ⟨.hbm, 127, rfl⟩
abbrev main_cst_25 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_26 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_27 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_28 : Ref sig .tc := ⟨.hbm, 144, rfl⟩
abbrev main_call3_v0 : Ref sig .tc := ⟨.hbm, 145, rfl⟩
abbrev main_call3_v1 : Ref sig .tc := ⟨.hbm, 146, rfl⟩
abbrev main_v101 : Ref sig .tc := ⟨.hbm, 147, rfl⟩
abbrev main_cst_29 : Ref sig .tc := ⟨.hbm, 148, rfl⟩
abbrev main_call4_v0 : Ref sig .tc := ⟨.hbm, 149, rfl⟩
abbrev main_call4_v1 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S1000000 : S_.BroadcastsInDim S1000000 (![] : Fin 0 → Fin S1000000.rank)
  gather_S1000000_S2000000x1_S2000000_n_0_n_n_0_1_1_wf : GatherDims.WF S1000000 S2000000x1 S2000000 [] [0] [] [0] [] 1 ![1]
  scatter_S1000000_S2000000x1_S2000000_n_0_0_1_wf : ScatterDims.WF S1000000 S2000000x1 S2000000 [] [0] [0] 1

variable [Facts₀]

def gather_S1000000_S2000000x1_S2000000_n_0_n_n_0_1_1 : GatherDims S1000000 S2000000x1 S2000000 where
  offsetDims := []
  collapsedSliceDims := [0]
  operandBatchingDims := []
  startIndicesBatchingDims := []
  startIndexMap := [0]
  indexVectorDim := 1
  sliceSizes := ![1]
  wf := gather_S1000000_S2000000x1_S2000000_n_0_n_n_0_1_1_wf
def scatter_S1000000_S2000000x1_S2000000_n_0_0_1 : ScatterDims S1000000 S2000000x1 S2000000 where
  updateWindowDims := []
  insertedWindowDims := [0]
  scatterDimsToOperandDims := [0]
  indexVectorDim := 1
  wf := scatter_S1000000_S2000000x1_S2000000_n_0_0_1_wf

class Facts : Prop extends Facts₀ where

variable [Facts]
-- ==== Proof.LibPadLayout.lean ====
/-
  A flat array padded at its end to a whole number of rows and laid out as rows of lanes, read at an index.

  An array of `n` entries is padded with a constant to `p = r * l` entries and reshaped (row-major) to `r` rows of
  `l` lanes; a result of the same layout is flattened back and cut to its first `n` entries. Entry `i < n` of the
  flat array sits in row `i / l`, lane `i % l` (`cell`), because `(i / l) * l + i % l = i`:
  * `rows_pad_apply`: the padded, reshaped array holds at `cell i` the flat array's entry `i` (the padding value is
    never met below `n`);
  * `slice_flatten_apply`: the flattened, cut array holds at `i` what the rows-of-lanes array holds at `cell i`.
  Together: a pointwise operation applied to padded rows-of-lanes operands and cut back is the same pointwise
  operation applied to the flat operands.
-/
import Idealize.ShloMosaic.Lib.Pipeline.Value
import Idealize.ShloMosaic.Lib.KernelVsHost
import Idealize.ShloMosaic.Lib.ValueIdx

noncomputable section

namespace Cert.Lib.PadLayout

open Idealize.ShloMosaic Idealize.ShloMosaic.ValueIdx

variable {α : Type}

/-- Entry `i` of a flat array of `n ≤ r * l` entries, in the layout of `r` rows of `l` lanes: row `i / l`, lane
    `i % l`. -/
def cell {n r l : Nat} (hl : 0 < l) (hn : n ≤ r * l) (i : (⟨1, ![n]⟩ : Shape).Idx) : (⟨2, ![r, l]⟩ : Shape).Idx :=
  ix2 (⟨(i 0).val / l, Nat.div_lt_of_lt_mul (by
          have h : (i 0).val < n := (i 0).isLt
          exact Nat.lt_of_lt_of_le h (by rw [Nat.mul_comm]; exact hn))⟩ : Fin r)
      (⟨(i 0).val % l, Nat.mod_lt _ hl⟩ : Fin l)

/-- The row-major position of `cell i` is `i`. -/
theorem cell_rowMajor {n r l : Nat} (hl : 0 < l) (hn : n ≤ r * l) (i : (⟨1, ![n]⟩ : Shape).Idx) :
    ((⟨2, ![r, l]⟩ : Shape).rowMajor (cell hl hn i)).val = (i 0).val := by
  rw [Shape.rowMajor_val_two]
  show (i 0).val / l * l + (i 0).val % l = (i 0).val
  exact Nat.div_add_mod' _ _

/-- A rows-of-lanes array flattened and cut to its first `n` entries holds at `i` the array's entry at `cell i`. -/
theorem slice_flatten_apply {n p r l : Nat} (hl : 0 < l) (hn : n ≤ r * l)
    (X : (⟨2, ![r, l]⟩ : Shape).Idx → α)
    (hc : (⟨2, ![r, l]⟩ : Shape).ShapeCasts ⟨1, ![p]⟩)
    (hs : (⟨1, ![p]⟩ : Shape).Slices (![0] : Fin 1 → Nat) ⟨1, ![n]⟩)
    (i : (⟨1, ![n]⟩ : Shape).Idx) :
    extractStridedSlice ⟨1, ![n]⟩ ![0] (shapeCast ⟨1, ![p]⟩ X hc) hs i = X (cell hl hn i) := by
  have hi : (i 0).val < n := (i 0).isLt
  have hnp : n ≤ p := by
    have e : (0 : Nat) + n ≤ p := hs.2 (0 : Fin 1)
    omega
  refine (extractStridedSlice_apply _ _ hs i (ix1 (⟨(i 0).val, by omega⟩ : Fin p)) (by
    intro a
    have ha : a = 0 := Subsingleton.elim _ _
    subst ha
    show (i 0).val = 0 + (i 0).val
    omega)).trans ?_
  refine shapeCast_apply X hc _ (cell hl hn i) ?_
  rw [cell_rowMajor, Shape.rowMajor_val_one]
  rfl

/-- A flat array padded at its end and laid out as rows of lanes holds at `cell i` the flat array's entry `i`. -/
theorem rows_pad_apply {n p r l hi : Nat} (hl : 0 < l) (hn : n ≤ r * l)
    (x : (⟨1, ![n]⟩ : Shape).Idx → α) {u : Shape} (v : u.Idx → α)
    (hp : (⟨1, ![n]⟩ : Shape).Pads (![0] : Fin 1 → Nat) ![hi] ![0] ⟨1, ![p]⟩) (hu : 0 < u.numel)
    (hc : (⟨1, ![p]⟩ : Shape).ShapeCasts ⟨2, ![r, l]⟩)
    (i : (⟨1, ![n]⟩ : Shape).Idx) :
    shapeCast ⟨2, ![r, l]⟩ (pad ⟨1, ![p]⟩ ![0] ![hi] ![0] x v hp hu) hc (cell hl hn i) = x i := by
  have hi' : (i 0).val < n := (i 0).isLt
  have hnp : n ≤ p := by
    have e : p = 0 + n + 0 * (n - 1) + hi := hp.2 (0 : Fin 1)
    omega
  refine (shapeCast_apply _ hc (cell hl hn i) (ix1 (⟨(i 0).val, by omega⟩ : Fin p)) (by
    rw [cell_rowMajor, Shape.rowMajor_val_one]
    rfl)).trans ?_
  refine (pad_apply_of_inside _ _ _ x v hp hu _ i (by
    intro a
    have ha : a = 0 := Subsingleton.elim _ _
    subst ha
    show (i 0).val = 0 + (i 0).val * (0 + 1)
    omega))

end Cert.Lib.PadLayout

end
-- ==== Proof.HostChain.lean ====
/-
  The host operations between the regions, read down to each region boundary.

  Between its three regions the program runs stretches of host operations: it sums the links' sliding velocities into
  the nodes and divides by the degree (before region 0), gathers the head and the conduit size at the links' two
  nodes (between regions 0 and 1), sums the link fluxes into the nodes with opposite signs (between regions 1 and
  2), and around every region pads each flat array with a constant to whole tiles, lays it out as rows of 128 lanes,
  and cuts each result back. The buffer contents at a boundary are a fold of these operations over the contents at
  the previous boundary; read at one buffer the fold is a term of the operations. Stated here, per region:
  * what each operand array of the region holds at the cell of node (link) `i`: entry `i` of the flat array it was
    padded from — an argument array, or a host function (`segMean`, `takeAt`, `netFlux`) of arrays at the previous
    boundary (`in0_*`, `in1_*`, `in2_*`);
  * which buffers a group of stretches leaves as it found them (`keep0_*`, `keep1_*`);
  * the result array: the last region's output array cut back to the nodes (`result_eq`).
-/
import proofs.«154982_j65609920413788_1_alg».proof.Proof.Gen.KernelIdeal.Frame
import proofs.«154982_j65609920413788_1_alg».proof.Proof.LibPadLayout
import Idealize.ShloMosaic.Lib.StableHlo.Run

set_option maxRecDepth 16384

noncomputable section

namespace Cert.KernelIdeal.HostChain

open Cert.KernelIdeal Cert.KernelIdeal.Gen Cert.Lib.PadLayout
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Where node `i` sits among the 8192 rows of 128 lanes. -/
abbrev nodeCell (i : S1000000.Idx) : S8192x128.Idx :=
  cell (n := 1000000) (r := 8192) (l := 128) (by decide) (by decide) i

/-- Where link `i` sits among the 16384 rows of 128 lanes. -/
abbrev linkCell (i : S2000000.Idx) : S16384x128.Idx :=
  cell (n := 2000000) (r := 16384) (l := 128) (by decide) (by decide) i

/-! ## The host-side functions the program applies between its regions -/

/-- A rows-of-lanes node array flattened and cut back to the 1000000 nodes. -/
def unrowsN {α : Type} (X : S8192x128.Idx → α) : S1000000.Idx → α :=
  extractStridedSlice S1000000 ![0] (shapeCast S1048576 X Facts₀.shapeCasts_S8192x128_S1048576) Facts₀.slices_S1048576_S1000000_0

/-- A rows-of-lanes link array flattened and cut back to the 2000000 links. -/
def unrowsL {α : Type} (X : S16384x128.Idx → α) : S2000000.Idx → α :=
  extractStridedSlice S2000000 ![0] (shapeCast S2097152 X Facts₀.shapeCasts_S16384x128_S2097152) Facts₀.slices_S2097152_S2000000_0

/-- Node `i` of the cut-back array is the rows-of-lanes array at node `i`'s cell. -/
theorem unrowsN_apply {α : Type} (X : S8192x128.Idx → α) (i : S1000000.Idx) : unrowsN X i = X (nodeCell i) :=
  slice_flatten_apply (n := 1000000) (p := 1048576) (r := 8192) (l := 128) (by decide) (by decide) X _ _ i

/-- Link `i` of the cut-back array is the rows-of-lanes array at link `i`'s cell. -/
theorem unrowsL_apply {α : Type} (X : S16384x128.Idx → α) (i : S2000000.Idx) : unrowsL X i = X (linkCell i) :=
  slice_flatten_apply (n := 2000000) (p := 2097152) (r := 16384) (l := 128) (by decide) (by decide) X _ _ i

/-- A link index array made a column of start indices, a negative index first wrapped around by the node count. -/
def wrapIdx (x : IVec S2000000 32) : IVec S2000000x1 32 :=
  broadcastInDim S2000000x1 ![0] Facts₀.bcast_S2000000_S2000000x1_0
    (select (cmpi .slt x (broadcastInDim S2000000 ![] Facts₀.bcast_S_S2000000 (constantI S_ 32 0#32)))
      (addi x (broadcastInDim S2000000 ![] Facts₀.bcast_S_S2000000 (constantI S_ 32 1000000#32))) x)

/-- A node array read at the nodes a link index array names. -/
def takeAt (v : FVec F S1000000 .f32) (x : IVec S2000000 32) : FVec F S2000000 .f32 :=
  Host.gather gather_S1000000_S2000000x1_S2000000_n_0_n_n_0_1_1 v (wrapIdx x)

/-- A link array summed into the nodes a link index array names, from zero. -/
def segSum (u : FVec F S2000000 .f32) (x : IVec S2000000 32) : FVec F S1000000 .f32 :=
  Host.scatterAdd scatter_S1000000_S2000000x1_S2000000_n_0_0_1
    (broadcastInDim S1000000 ![] Facts₀.bcast_S_S1000000 (constant S_ .f32 0x00000000#32))
    (broadcastInDim S2000000x1 ![0] Facts₀.bcast_S2000000_S2000000x1_0 x) u

/-- The mean over a node's links (as tail and as head) of a link array; a node with no link divides by one. -/
def segMean (u : FVec F S2000000 .f32) (xt xh : IVec S2000000 32) : FVec F S1000000 .f32 :=
  Host.divf (addf (segSum u xt) (segSum u xh))
    (maximumf
      (addf (segSum (broadcastInDim S2000000 ![] Facts₀.bcast_S_S2000000 (constant S_ .f32 0x3F800000#32)) xt)
        (segSum (broadcastInDim S2000000 ![] Facts₀.bcast_S_S2000000 (constant S_ .f32 0x3F800000#32)) xh))
      (broadcastInDim S1000000 ![] Facts₀.bcast_S_S1000000 (constant S_ .f32 0x3F800000#32)))

/-- The net flux at the nodes: what leaves along links whose tail the node is minus what arrives along links whose
    head it is. -/
def netFlux (q : FVec F S2000000 .f32) (xt xh : IVec S2000000 32) : FVec F S1000000 .f32 :=
  subf (segSum q xt) (segSum q xh)

/-! ## The result, after the last region -/

/-- The result array is region 2's output array cut back to the nodes. -/
theorem result_eq (c : Dev nD) :
    W41 m ρ c (Proc.devRef .tc main_v102) = unrowsN (W40 m ρ c (Proc.devRef .tc main_v100)) := by
  dsimp only [W41, hostOps3]
  after_results_simp
  rfl

/-! ## Before region 0: the stretches from the launch memory -/

theorem in0_0 (c : Dev nD) (i : S1000000.Idx) : V13 m ρ c main_v20 (nodeCell i) = m ((c : Thread nD τ).loc main_arg0) i := by
  dsimp only [V13, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i
theorem in0_1 (c : Dev nD) (i : S1000000.Idx) : V13 m ρ c main_v22 (nodeCell i) = m ((c : Thread nD τ).loc main_arg4) i := by
  dsimp only [V13, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i
theorem in0_2 (c : Dev nD) (i : S1000000.Idx) :
    V13 m ρ c main_v24 (nodeCell i) = (m ((c : Thread nD τ).loc main_arg10) i).setWidth 32 := by
  dsimp only [V13, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i
theorem in0_3 (c : Dev nD) (i : S1000000.Idx) : V13 m ρ c main_v26 (nodeCell i) = m ((c : Thread nD τ).loc main_arg5) i := by
  dsimp only [V13, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i
theorem in0_4 (c : Dev nD) (i : S1000000.Idx) : V13 m ρ c main_v28 (nodeCell i) = m ((c : Thread nD τ).loc main_arg6) i := by
  dsimp only [V13, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i
theorem in0_5 (c : Dev nD) (i : S1000000.Idx) :
    V13 m ρ c main_v30 (nodeCell i)
      = segMean (m ((c : Thread nD τ).loc main_arg7)) (m ((c : Thread nD τ).loc main_arg8)) (m ((c : Thread nD τ).loc main_arg9)) i := by
  dsimp only [V13, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i

/-- What the stretches before region 0 leave untouched or compute once, read where region 0 is entered. -/
theorem keep0_arg1 (c : Dev nD) : W13 m ρ c (Proc.devRef .tc main_arg1) = m ((c : Thread nD τ).loc main_arg1) := by
  dsimp only [W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
theorem keep0_arg2 (c : Dev nD) : W13 m ρ c (Proc.devRef .tc main_arg2) = m ((c : Thread nD τ).loc main_arg2) := by
  dsimp only [W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
theorem keep0_arg3 (c : Dev nD) : W13 m ρ c (Proc.devRef .tc main_arg3) = m ((c : Thread nD τ).loc main_arg3) := by
  dsimp only [W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
theorem keep0_arg8 (c : Dev nD) : W13 m ρ c (Proc.devRef .tc main_arg8) = m ((c : Thread nD τ).loc main_arg8) := by
  dsimp only [W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
theorem keep0_arg9 (c : Dev nD) : W13 m ρ c (Proc.devRef .tc main_arg9) = m ((c : Thread nD τ).loc main_arg9) := by
  dsimp only [W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp
theorem keep0_v18 (c : Dev nD) :
    W13 m ρ c (Proc.devRef .tc main_v18) = extui 32 (m ((c : Thread nD τ).loc main_arg10)) Facts₀.natLt_1_32 := by
  dsimp only [W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12]
  after_results_simp

/-! ## Between region 0 and region 1: the stretches from region 0's exit contents -/

theorem in1_0 (c : Dev nD) (i : S2000000.Idx) :
    V27 m ρ c main_v69 (linkCell i)
      = takeAt (unrowsN (W14 m ρ c (Proc.devRef .tc main_v31_0))) (W14 m ρ c (Proc.devRef .tc main_arg9)) i := by
  dsimp only [V27, W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
  exact rows_pad_apply (n := 2000000) (p := 2097152) (r := 16384) (l := 128) (hi := 97152) (by decide) (by decide) _ _ Facts₀.pads_S2000000_S2097152_0971520 Facts₀.h_S_ Facts₀.shapeCasts_S2097152_S16384x128 i
theorem in1_1 (c : Dev nD) (i : S2000000.Idx) :
    V27 m ρ c main_v71 (linkCell i)
      = takeAt (unrowsN (W14 m ρ c (Proc.devRef .tc main_v31_0))) (W14 m ρ c (Proc.devRef .tc main_arg8)) i := by
  dsimp only [V27, W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
  exact rows_pad_apply (n := 2000000) (p := 2097152) (r := 16384) (l := 128) (hi := 97152) (by decide) (by decide) _ _ Facts₀.pads_S2000000_S2097152_0971520 Facts₀.h_S_ Facts₀.shapeCasts_S2097152_S16384x128 i
theorem in1_2 (c : Dev nD) (i : S2000000.Idx) :
    V27 m ρ c main_v73 (linkCell i) = W14 m ρ c (Proc.devRef .tc main_arg2) i := by
  dsimp only [V27, W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
  exact rows_pad_apply (n := 2000000) (p := 2097152) (r := 16384) (l := 128) (hi := 97152) (by decide) (by decide) _ _ Facts₀.pads_S2000000_S2097152_0971520 Facts₀.h_S_ Facts₀.shapeCasts_S2097152_S16384x128 i
theorem in1_3 (c : Dev nD) (i : S2000000.Idx) :
    V27 m ρ c main_v75 (linkCell i)
      = takeAt (unrowsN (W14 m ρ c (Proc.devRef .tc main_v31_1))) (W14 m ρ c (Proc.devRef .tc main_arg9)) i := by
  dsimp only [V27, W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
  exact rows_pad_apply (n := 2000000) (p := 2097152) (r := 16384) (l := 128) (hi := 97152) (by decide) (by decide) _ _ Facts₀.pads_S2000000_S2097152_0971520 Facts₀.h_S_ Facts₀.shapeCasts_S2097152_S16384x128 i
theorem in1_4 (c : Dev nD) (i : S2000000.Idx) :
    V27 m ρ c main_v77 (linkCell i)
      = takeAt (unrowsN (W14 m ρ c (Proc.devRef .tc main_v31_1))) (W14 m ρ c (Proc.devRef .tc main_arg8)) i := by
  dsimp only [V27, W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
  exact rows_pad_apply (n := 2000000) (p := 2097152) (r := 16384) (l := 128) (hi := 97152) (by decide) (by decide) _ _ Facts₀.pads_S2000000_S2097152_0971520 Facts₀.h_S_ Facts₀.shapeCasts_S2097152_S16384x128 i
theorem in1_5 (c : Dev nD) (i : S2000000.Idx) :
    V27 m ρ c main_v79 (linkCell i) = W14 m ρ c (Proc.devRef .tc main_arg1) i := by
  dsimp only [V27, W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
  exact rows_pad_apply (n := 2000000) (p := 2097152) (r := 16384) (l := 128) (hi := 97152) (by decide) (by decide) _ _ Facts₀.pads_S2000000_S2097152_0971520 Facts₀.h_S_ Facts₀.shapeCasts_S2097152_S16384x128 i

theorem keep1_arg3 (c : Dev nD) : W27 m ρ c (Proc.devRef .tc main_arg3) = W14 m ρ c (Proc.devRef .tc main_arg3) := by
  dsimp only [W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
theorem keep1_arg8 (c : Dev nD) : W27 m ρ c (Proc.devRef .tc main_arg8) = W14 m ρ c (Proc.devRef .tc main_arg8) := by
  dsimp only [W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
theorem keep1_arg9 (c : Dev nD) : W27 m ρ c (Proc.devRef .tc main_arg9) = W14 m ρ c (Proc.devRef .tc main_arg9) := by
  dsimp only [W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
theorem keep1_v18 (c : Dev nD) : W27 m ρ c (Proc.devRef .tc main_v18) = W14 m ρ c (Proc.devRef .tc main_v18) := by
  dsimp only [W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
theorem keep1_v37 (c : Dev nD) :
    W27 m ρ c (Proc.devRef .tc main_v37) = unrowsN (W14 m ρ c (Proc.devRef .tc main_v31_2)) := by
  dsimp only [W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
  rfl
theorem keep1_v39 (c : Dev nD) :
    W27 m ρ c (Proc.devRef .tc main_v39) = unrowsN (W14 m ρ c (Proc.devRef .tc main_v31_3)) := by
  dsimp only [W27, W26, W25, W24, W23, W22, W21, W20, W19, W18, W17, W16, W15, hostOps1, hostOps1_1, hostOps1_2, hostOps1_3, hostOps1_4, hostOps1_5, hostOps1_6, hostOps1_7, hostOps1_8, hostOps1_9, hostOps1_10, hostOps1_11, hostOps1_12]
  after_results_simp
  rfl

/-! ## Between region 1 and region 2: the stretches from region 1's exit contents -/

theorem in2_0 (c : Dev nD) (i : S1000000.Idx) :
    V39 m ρ c main_v91 (nodeCell i)
      = netFlux (unrowsL (W28 m ρ c (Proc.devRef .tc main_v80))) (W28 m ρ c (Proc.devRef .tc main_arg8))
          (W28 m ρ c (Proc.devRef .tc main_arg9)) i := by
  dsimp only [V39, W39, W38, W37, W36, W35, W34, W33, W32, W31, W30, W29, hostOps2, hostOps2_1, hostOps2_2, hostOps2_3, hostOps2_4, hostOps2_5, hostOps2_6, hostOps2_7, hostOps2_8, hostOps2_9, hostOps2_10]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i
theorem in2_1 (c : Dev nD) (i : S1000000.Idx) :
    V39 m ρ c main_v93 (nodeCell i) = W28 m ρ c (Proc.devRef .tc main_v18) i := by
  dsimp only [V39, W39, W38, W37, W36, W35, W34, W33, W32, W31, W30, W29, hostOps2, hostOps2_1, hostOps2_2, hostOps2_3, hostOps2_4, hostOps2_5, hostOps2_6, hostOps2_7, hostOps2_8, hostOps2_9, hostOps2_10]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i
theorem in2_2 (c : Dev nD) (i : S1000000.Idx) :
    V39 m ρ c main_v95 (nodeCell i) = W28 m ρ c (Proc.devRef .tc main_arg3) i := by
  dsimp only [V39, W39, W38, W37, W36, W35, W34, W33, W32, W31, W30, W29, hostOps2, hostOps2_1, hostOps2_2, hostOps2_3, hostOps2_4, hostOps2_5, hostOps2_6, hostOps2_7, hostOps2_8, hostOps2_9, hostOps2_10]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i
theorem in2_3 (c : Dev nD) (i : S1000000.Idx) :
    V39 m ρ c main_v97 (nodeCell i) = W28 m ρ c (Proc.devRef .tc main_v37) i := by
  dsimp only [V39, W39, W38, W37, W36, W35, W34, W33, W32, W31, W30, W29, hostOps2, hostOps2_1, hostOps2_2, hostOps2_3, hostOps2_4, hostOps2_5, hostOps2_6, hostOps2_7, hostOps2_8, hostOps2_9, hostOps2_10]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i
theorem in2_4 (c : Dev nD) (i : S1000000.Idx) :
    V39 m ρ c main_v99 (nodeCell i) = W28 m ρ c (Proc.devRef .tc main_v39) i := by
  dsimp only [V39, W39, W38, W37, W36, W35, W34, W33, W32, W31, W30, W29, hostOps2, hostOps2_1, hostOps2_2, hostOps2_3, hostOps2_4, hostOps2_5, hostOps2_6, hostOps2_7, hostOps2_8, hostOps2_9, hostOps2_10]
  after_results_simp
  exact rows_pad_apply (n := 1000000) (p := 1048576) (r := 8192) (l := 128) (hi := 48576) (by decide) (by decide) _ _ Facts₀.pads_S1000000_S1048576_0485760 Facts₀.h_S_ Facts₀.shapeCasts_S1048576_S8192x128 i

end Cert.KernelIdeal.HostChain

end
-- ==== Proof.Glacier.lean ====
/-
  The glacier-hydrology operator, one node or one link at a time.

  Every pass of the computation is pointwise: what it writes at a node (or a link) is a function of what its
  operands hold at that node (that link). The functions below are those scalar functions, written once over an
  arbitrary float instance; the operations are the tensor core's (`FloatOps.divf`, `FloatOps.absf`, a negation
  as `0 - x`), the literals their IEEE words.

  Node pass: with `h` the head, `b` the bedrock elevation, `n` the boundary flag as a 32-bit integer, `p` the
  overburden pressure, `g` the geothermal flux and `u` the mean sliding velocity at the node,
    head with boundary conditions  hbc = if n ≠ 0 then b else h
    effective pressure             N   = clamp of  p - 9810 · (hbc - b)  from above by p, then from below by 1e4
    melt flux                      mf  = (g + |u · (0.6 · N)|) / 334000
    conduit size                   S   = mf / 917 / (6e-24 · N³)        with N³ = (N · N) · N
    melt term                      mf · (1/1000 - 1/917)  (one folded literal)
    closure term                   (6e-24 · N³) · S.
  Link pass: with `hh`, `ht` the head at the link's head and tail node, `len` its length, `sh`, `st` the conduit
  size at its two nodes and `re` its Reynolds number,
    flux = ((0 - (s³ · 9.81) / (0.021444 · (1 + 0.001 · re))) · ((hh - ht) / len)) · len,  s = 0.5 · (sh + st),
    s³ = s · (s · s).
  Last node pass: with `q` the net flux, `a` the node's area, `mt` and `ct` the melt and closure terms,
    out = (if n ≠ 0 then 0 else q) / (if n ≠ 0 then 1 else a) - mt - ct.
-/
import Idealize.ShloMosaic.PureOps.Ideal

noncomputable section

namespace Cert.Glacier

open Idealize.ShloMosaic

variable {F : FTy → Type} [FloatOps F]

/-- A float literal by its IEEE word. -/
abbrev lit (w : BitVec 32) : F .f32 := FloatOps.ofBits .f32 w

/-- The boundary flag, carried as a 32-bit integer, as a one-bit condition. -/
abbrev flag (n : BitVec 32) : BitVec 1 := IntOp.cmpi .ne n 0#32

/-- The head with the boundary condition enforced: the bedrock elevation at a boundary node. -/
def headBc (h b : F .f32) (n : BitVec 32) : F .f32 := Scalar.select (flag n) b h

/-- The overburden minus the water pressure, before clamping. -/
def rawPressure (h b : F .f32) (n : BitVec 32) (p : F .f32) : F .f32 :=
  FloatOps.subf p (FloatOps.mulf (lit 0x46194800#32) (FloatOps.subf (headBc h b n) b))

/-- The effective pressure: clamped from above by the overburden. -/
def cappedPressure (h b : F .f32) (n : BitVec 32) (p : F .f32) : F .f32 :=
  Scalar.select (FloatOps.cmpf .ogt (rawPressure h b n p) p) p (rawPressure h b n p)

/-- The effective pressure `N`: clamped from below by 1e4 as well. -/
def effPressure (h b : F .f32) (n : BitVec 32) (p : F .f32) : F .f32 :=
  Scalar.select (FloatOps.cmpf .olt (cappedPressure h b n p) (lit 0x461C4000#32)) (lit 0x461C4000#32) (cappedPressure h b n p)

/-- The melt flux `(g + |u · (0.6 · N)|) / 334000`. -/
def meltFlux (h b : F .f32) (n : BitVec 32) (p g u : F .f32) : F .f32 :=
  FloatOps.divf (FloatOps.addf g (FloatOps.absf (FloatOps.mulf u (FloatOps.mulf (lit 0x3F19999A#32) (effPressure h b n p)))))
    (lit 0x48A31600#32)

/-- `N³`, as `(N · N) · N`. -/
def pressureCubed (h b : F .f32) (n : BitVec 32) (p : F .f32) : F .f32 :=
  FloatOps.mulf (FloatOps.mulf (effPressure h b n p) (effPressure h b n p)) (effPressure h b n p)

/-- The conduit size `mf / 917 / (6e-24 · N³)`. -/
def conduit (h b : F .f32) (n : BitVec 32) (p g u : F .f32) : F .f32 :=
  FloatOps.divf (FloatOps.divf (meltFlux h b n p g u) (lit 0x44654000#32))
    (FloatOps.mulf (lit 0x18E81D1F#32) (pressureCubed h b n p))

/-- The melt term: the melt flux times the folded literal `1/1000 - 1/917`. -/
def meltTerm (h b : F .f32) (n : BitVec 32) (p g u : F .f32) : F .f32 :=
  FloatOps.mulf (meltFlux h b n p g u) (lit 0xB8BDD18D#32)

/-- The closure term `(6e-24 · N³) · S`. -/
def closureTerm (h b : F .f32) (n : BitVec 32) (p g u : F .f32) : F .f32 :=
  FloatOps.mulf (FloatOps.mulf (lit 0x18E81D1F#32) (pressureCubed h b n p)) (conduit h b n p g u)

/-- The conduit size on a link: half the sum over its two nodes. -/
def linkConduit (sh st : F .f32) : F .f32 := FloatOps.mulf (lit 0x3F000000#32) (FloatOps.addf sh st)

/-- The transmissivity `(s³ · 9.81) / (0.021444 · (1 + 0.001 · re))`, the cube as `s · (s · s)`. -/
def transmissivity (sh st re : F .f32) : F .f32 :=
  FloatOps.divf
    (FloatOps.mulf (FloatOps.mulf (linkConduit sh st) (FloatOps.mulf (linkConduit sh st) (linkConduit sh st))) (lit 0x411CF5C3#32))
    (FloatOps.mulf (lit 0x3CAFAB54#32) (FloatOps.addf (lit 0x3F800000#32) (FloatOps.mulf (lit 0x3A83126F#32) re)))

/-- The flux along a link: minus the transmissivity times the head gradient times the length. -/
def linkFlux (hh ht len sh st re : F .f32) : F .f32 :=
  FloatOps.mulf
    (FloatOps.mulf (FloatOps.subf (lit 0x00000000#32) (transmissivity sh st re)) (FloatOps.divf (FloatOps.subf hh ht) len))
    len

/-- The residual at a node: the net flux over the area (0 over 1 at a boundary node) minus the melt and closure terms. -/
def residual (q : F .f32) (n : BitVec 32) (a mt ct : F .f32) : F .f32 :=
  FloatOps.subf
    (FloatOps.subf
      (FloatOps.divf (Scalar.select (flag n) (lit 0x00000000#32) q) (Scalar.select (flag n) (lit 0x3F800000#32) a))
      mt)
    ct

end Cert.Glacier

end
-- ==== Proof.RegionArrays.lean ====
/-
  What each of the three grid regions leaves in its output arrays.

  Every window of every region has blocks of 1024 × 128 and the index map (i) ↦ (i, 0): grid point `t` reads block
  `t` of each operand array and writes block `t` of each result array. The body is a tree of pointwise operations of
  the loaded blocks, so what point `t` writes back is block `t` of ONE function of the operand arrays, index by
  index; the blocks tile the result array exactly (8 points over 8192 rows, 16 over 16384), so after the region the
  result array IS that function of the operand arrays as the region found them.

  Per result window: the payload as a pointwise function (`pay…`), the index maps decided over the grid (`idx…`),
  what a point writes back (`flushed…`), membership in a point's block (`mem_blk…`), the cover (`cover…`), and
  the whole-array statement (`arr…`).
-/
import proofs.«154982_j65609920413788_1_alg».proof.Proof.Gen.KernelIdeal.Frame
import proofs.«154982_j65609920413788_1_alg».proof.Proof.Glacier
import Idealize.ShloMosaic.Lib.Pipeline.Value

set_option maxRecDepth 16384

noncomputable section

namespace Cert.KernelIdeal.RegionArrays

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The zero offsets of a whole-block access, however spelt. -/
theorem hz : (![0, 0] : Fin 2 → Nat) = fun _ => 0 := funext fun a => by fin_cases a <;> rfl

/-! ## Region 0: the payloads, pointwise -/

/-- The bedrock block, recast to its own shape. -/
theorem pay0_3 (x1 : Vec F S1024x128 .f32) : k0_pay3 x1 = x1 := by
  unfold k0_pay3
  exact shapeCast_self _ _

/-- The head with the boundary condition enforced. -/
theorem pay0_4 (x0 x1 : Vec F S1024x128 .f32) (x2 : Vec F S1024x128 .i32) :
    k0_pay4 x0 x1 x2 = fun j => Cert.Glacier.headBc (x0 j) (x1 j) (x2 j) := by
  unfold k0_pay4
  simp only [pay0_3, shapeCast_self]
  rfl

/-- The effective pressure. -/
theorem pay0_5 (x0 x1 : Vec F S1024x128 .f32) (x2 : Vec F S1024x128 .i32) (x3 : Vec F S1024x128 .f32) :
    k0_pay5 x0 x1 x2 x3 = fun j => Cert.Glacier.effPressure (x0 j) (x1 j) (x2 j) (x3 j) := by
  unfold k0_pay5
  simp only [pay0_3, pay0_4, shapeCast_self]
  rfl

/-- The melt flux. -/
theorem pay0_6 (x0 x1 : Vec F S1024x128 .f32) (x2 : Vec F S1024x128 .i32) (x3 x4 x5 : Vec F S1024x128 .f32) :
    k0_pay6 x0 x1 x2 x3 x4 x5 = fun j => Cert.Glacier.meltFlux (x0 j) (x1 j) (x2 j) (x3 j) (x4 j) (x5 j) := by
  unfold k0_pay6
  simp only [pay0_5, shapeCast_self]
  rfl

/-- The cube of the effective pressure. -/
theorem pay0_7 (x0 x1 : Vec F S1024x128 .f32) (x2 : Vec F S1024x128 .i32) (x3 : Vec F S1024x128 .f32) :
    k0_pay7 x0 x1 x2 x3 = fun j => Cert.Glacier.pressureCubed (x0 j) (x1 j) (x2 j) (x3 j) := by
  unfold k0_pay7
  simp only [pay0_5]
  rfl

/-- The conduit size. -/
theorem pay0_8 (x0 x1 : Vec F S1024x128 .f32) (x2 : Vec F S1024x128 .i32) (x3 x4 x5 : Vec F S1024x128 .f32) :
    k0_pay8 x0 x1 x2 x3 x4 x5 = fun j => Cert.Glacier.conduit (x0 j) (x1 j) (x2 j) (x3 j) (x4 j) (x5 j) := by
  unfold k0_pay8
  simp only [pay0_6, pay0_7]
  rfl

/-- The melt term. -/
theorem pay0_melt (x0 x1 : Vec F S1024x128 .f32) (x2 : Vec F S1024x128 .i32) (x3 x4 x5 : Vec F S1024x128 .f32) :
    k0_pay1 (k0_pay6 x0 x1 x2 x3 x4 x5) = fun j => Cert.Glacier.meltTerm (x0 j) (x1 j) (x2 j) (x3 j) (x4 j) (x5 j) := by
  rw [pay0_6]
  unfold k0_pay1
  rfl

/-- The closure term. -/
theorem pay0_closure (x0 x1 : Vec F S1024x128 .f32) (x2 : Vec F S1024x128 .i32) (x3 x4 x5 : Vec F S1024x128 .f32) :
    k0_pay2 (k0_pay7 x0 x1 x2 x3) (k0_pay8 x0 x1 x2 x3 x4 x5)
      = fun j => Cert.Glacier.closureTerm (x0 j) (x1 j) (x2 j) (x3 j) (x4 j) (x5 j) := by
  rw [pay0_7, pay0_8]
  unfold k0_pay2
  rfl

/-! ## Regions 1 and 2: the payloads, pointwise -/

/-- The flux along a link. -/
theorem pay1_1 (x0 x1 x2 x3 x4 x5 : Vec F S1024x128 .f32) :
    k1_pay1 x0 x1 x2 x3 x4 x5 = fun j => Cert.Glacier.linkFlux (x0 j) (x1 j) (x2 j) (x3 j) (x4 j) (x5 j) := by
  unfold k1_pay1
  simp only [shapeCast_self]
  rfl

/-- The residual at a node. -/
theorem pay2_1 (x0 : Vec F S1024x128 .f32) (x1 : Vec F S1024x128 .i32) (x2 x3 x4 : Vec F S1024x128 .f32) :
    k2_pay1 x0 x1 x2 x3 x4 = fun j => Cert.Glacier.residual (x0 j) (x1 j) (x2 j) (x3 j) (x4 j) := by
  unfold k2_pay1
  simp only [shapeCast_self]
  rfl

/-! ## Region 0: the index maps -/

/-- Every window of region 0 is at block `(t, 0)` at grid point `t` (decided over the 8 points). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-! ## Region 0, result window 6: the head with boundary conditions -/

/-- What point `t` writes back is block `t` of the pointwise function of the operand arrays. -/
theorem flushed0_6 (c : Dev nD) (t : Fin cfg0.N) :
    (dat0 V c).flushed 6 t = ((cfg0.win 6).blk t).view.read (Elt F)
      (fun i : S8192x128.Idx => Cert.Glacier.headBc (V c main_v20 i) (V c main_v22 i) (V c main_v24 i)) := by
  show (cfg0.win 6).cut (grid0.coords t) ((dat0 V c).after 6 t) = _
  rw [after0_6]
  unfold out0_6
  rw [View.canon_unit_zero hz]
  simp only [View.ld_unit_zero (S := S1024x128) hz]
  rw [pay0_4]
  obtain ⟨⟨a0, b0⟩, ⟨a1, b1⟩, ⟨a2, b2⟩, -, -, -, ⟨a6, b6⟩, -, -, -⟩ := idx0 t
  funext j
  show Cert.Glacier.headBc (V c main_v20 (((cfg0.win 0).blk t).view.emb j)) (V c main_v22 (((cfg0.win 1).blk t).view.emb j)) (V c main_v24 (((cfg0.win 2).blk t).view.emb j))
    = Cert.Glacier.headBc (V c main_v20 (((cfg0.win 6).blk t).view.emb j)) (V c main_v22 (((cfg0.win 6).blk t).view.emb j)) (V c main_v24 (((cfg0.win 6).blk t).view.emb j))
  have h0 : ((cfg0.win 0).blk t).view.emb j = ((cfg0.win 6).blk t).view.emb j := by
    funext a; apply Fin.ext
    match a with
    | ⟨0, _⟩ => show win0_0.index t (0 : Fin 2) * 1024 + 1 * (j 0).val = win0_6.index t (0 : Fin 2) * 1024 + 1 * (j 0).val; omega
    | ⟨1, _⟩ => show win0_0.index t (1 : Fin 2) * 128 + 1 * (j 1).val = win0_6.index t (1 : Fin 2) * 128 + 1 * (j 1).val; omega
  have h1 : ((cfg0.win 1).blk t).view.emb j = ((cfg0.win 6).blk t).view.emb j := by
    funext a; apply Fin.ext
    match a with
    | ⟨0, _⟩ => show win0_1.index t (0 : Fin 2) * 1024 + 1 * (j 0).val = win0_6.index t (0 : Fin 2) * 1024 + 1 * (j 0).val; omega
    | ⟨1, _⟩ => show win0_1.index t (1 : Fin 2) * 128 + 1 * (j 1).val = win0_6.index t (1 : Fin 2) * 128 + 1 * (j 1).val; omega
  have h2 : ((cfg0.win 2).blk t).view.emb j = ((cfg0.win 6).blk t).view.emb j := by
    funext a; apply Fin.ext
    match a with
    | ⟨0, _⟩ => show win0_2.index t (0 : Fin 2) * 1024 + 1 * (j 0).val = win0_6.index t (0 : Fin 2) * 1024 + 1 * (j 0).val; omega
    | ⟨1, _⟩ => show win0_2.index t (1 : Fin 2) * 128 + 1 * (j 1).val = win0_6.index t (1 : Fin 2) * 128 + 1 * (j 1).val; omega
  rw [h0, h1, h2]

/-- An index of the array is in point `t`'s block iff each coordinate is in the block's range on its axis. -/
theorem mem_blk0_6 (t : Fin cfg0.N) (i : S8192x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v31_0).slice (win0_6.rect t)).set ↔ _
  rw [View.set_slice_whole, Rect.mem_set_unit]
  exact Iff.rfl

/-- Every index of the array is in the block of the point its row falls in. -/
theorem cover0_6 (i : S8192x128.Idx) :
    ∃ t : Fin cfg0.N, (cfg0.win 6).flush t = true ∧ i ∈ ((cfg0.win 6).blk t).view.set := by
  have hi0 : (i 0).val < 8192 := (i 0).isLt
  have hi1 : (i 1).val < 128 := (i 1).isLt
  have hN : (i 0).val / 1024 < cfg0.N := by
    show (i 0).val / 1024 < grid0.N
    rw [N_0]; omega
  refine ⟨⟨(i 0).val / 1024, hN⟩, flush0_6 _, ?_⟩
  rw [mem_blk0_6]
  obtain ⟨-, -, -, -, -, -, ⟨a6, b6⟩, -, -, -⟩ := idx0 ⟨(i 0).val / 1024, hN⟩
  have a6' : win0_6.index ⟨(i 0).val / 1024, hN⟩ (0 : Fin 2) = (i 0).val / 1024 := a6
  intro a
  match a with
  | ⟨0, _⟩ => show win0_6.index ⟨(i 0).val / 1024, hN⟩ (0 : Fin 2) * 1024 ≤ (i 0).val ∧ (i 0).val < win0_6.index ⟨(i 0).val / 1024, hN⟩ (0 : Fin 2) * 1024 + 1024; omega
  | ⟨1, _⟩ => show win0_6.index ⟨(i 0).val / 1024, hN⟩ (1 : Fin 2) * 128 ≤ (i 1).val ∧ (i 1).val < win0_6.index ⟨(i 0).val / 1024, hN⟩ (1 : Fin 2) * 128 + 128; omega

/-- After region 0, result array 0 is the head with the boundary condition enforced, node by node. -/
theorem arr0_6 (c : Dev nD) : (dat0 V c).arrAt 6 cfg0.N
    = fun i : S8192x128.Idx => Cert.Glacier.headBc (V c main_v20 i) (V c main_v22 i) (V c main_v24 i) :=
  (dat0 V c).arrAt_eq_of_cover 6 _ (fun t _ => flushed0_6 V c t) cover0_6

/-! ## Region 0, result window 7: the conduit size -/

/-- What point `t` writes back is block `t` of the pointwise function of the operand arrays. -/
theorem flushed0_7 (c : Dev nD) (t : Fin cfg0.N) :
    (dat0 V c).flushed 7 t = ((cfg0.win 7).blk t).view.read (Elt F)
      (fun i : S8192x128.Idx => Cert.Glacier.conduit (V c main_v20 i) (V c main_v22 i) (V c main_v24 i) (V c main_v26 i) (V c main_v28 i) (V c main_v30 i)) := by
  show (cfg0.win 7).cut (grid0.coords t) ((dat0 V c).after 7 t) = _
  rw [after0_7]
  unfold out0_7
  rw [View.canon_unit_zero hz]
  simp only [View.ld_unit_zero (S := S1024x128) hz]
  rw [pay0_8]
  obtain ⟨⟨a0, b0⟩, ⟨a1, b1⟩, ⟨a2, b2⟩, ⟨a3, b3⟩, ⟨a4, b4⟩, ⟨a5, b5⟩, -, ⟨a7, b7⟩, -, -⟩ := idx0 t
  funext j
  show Cert.Glacier.conduit (V c main_v20 (((cfg0.win 0).blk t).view.emb j)) (V c main_v22 (((cfg0.win 1).blk t).view.emb j)) (V c main_v24 (((cfg0.win 2).blk t).view.emb j)) (V c main_v26 (((cfg0.win 3).blk t).view.emb j)) (V c main_v28 (((cfg0.win 4).blk t).view.emb j)) (V c main_v30 (((cfg0.win 5).blk t).view.emb j))
    = Cert.Glacier.conduit (V c main_v20 (((cfg0.win 7).blk t).view.emb j)) (V c main_v22 (((cfg0.win 7).blk t).view.emb j)) (V c main_v24 (((cfg0.win 7).blk t).view.emb j)) (V c main_v26 (((cfg0.win 7).blk t).view.emb j)) (V c main_v28 (((cfg0.win 7).blk t).view.emb j)) (V c main_v30 (((cfg0.win 7).blk t).view.emb j))
  have h0 : ((cfg0.win 0).blk t).view.emb j = ((cfg0.win 7).blk t).view.emb j := by
    funext a; apply Fin.ext
    match a with
    | ⟨0, _⟩ => show win0_0.index t (0 : Fin 2) * 1024 + 1 * (j 0).val = win0_7.index t (0 : Fin 2) * 1024 + 1 * (j 0).val; omega
    | ⟨1, _⟩ => show win0_0.index t (1 : Fin 2) * 128 + 1 * (j 1).val = win0_7.index t (1 : Fin 2) * 128 + 1 * (j 1).val; omega
  have h1 : ((cfg0.win 1).blk t).view.emb j = ((cfg0.win 7).blk t).view.emb j := by
    funext a; apply Fin.ext
    match a with
    | ⟨0, _⟩ => show win0_1.index t (0 : Fin 2) * 1024 + 1 * (j 0).val = win0_7.index t (0 : Fin 2) * 1024 + 1 * (j 0).val; omega
    | ⟨1, _⟩ => show win0_1.index t (1 : Fin 2) * 128 + 1 * (j 1).val = win0_7.index t (1 : Fin 2) * 128 + 1 * (j 1).val; omega
  have h2 : ((cfg0.win 2).blk t).view.emb j = ((cfg0.win 7).blk t).view.emb j := by
    funext a; apply Fin.ext
    match a with
    | ⟨0, _⟩ => show win0_2.index t (0 : Fin 2) * 1024 + 1 * (j 0).val = win0_7.index t (0 : Fin 2) * 1024 + 1 * (j 0).val; omega
    | ⟨1, _⟩ => show win0_2.index t (1 : Fin 2) * 128 + 1 * (j 1).val = win0_7.index t (1 : Fin 2) * 128 + 1 * (j 1).val; omega
  have h3 : ((cfg0.win 3).blk t).view.emb j = ((cfg0.win 7).blk t).view.emb j := by
    funext a; apply Fin.ext
    match a with
    | ⟨0, _⟩ => show win0_3.index t (0 : Fin 2) * 1024 + 1 * (j 0).val = win0_7.index t (0 : Fin 2) * 1024 + 1 * (j 0).val; omega
    | ⟨1, _⟩ => show win0_3.index t (1 : Fin 2) * 128 + 1 * (j 1).val = win0_7.index t (1 : Fin 2) * 128 + 1 * (j 1).val; omega
  have h4 : ((cfg0.win 4).blk t).view.emb j = ((cfg0.win 7).blk t).view.emb j := by
    funext a; apply Fin.ext
    match a with
    | ⟨0, _⟩ => show win0_4.index t (0 : Fin 2) * 1024 + 1 * (j 0).val = win0_7.index t (0 : Fin 2) * 1024 + 1 * (j 0).val; omega
    | ⟨1, _⟩ => show win0_4.index t (1 : Fin 2) * 128 + 1 * (j 1).val = win0_7.index t (1 : Fin 2) * 128 + 1 * (j 1).val; omega
  have h5 : ((cfg0.win 5).blk t).view.emb j = ((cfg0.win 7).blk t).view.emb j := by
    funext a; apply Fin.ext
    match a with
    | ⟨0, _⟩ => show win0_5.index t (0 : Fin 2) * 1024 + 1 * (j 0).val = win0_7.index t (0 : Fin 2) * 1024 + 1 * (j 0).val; omega
    | ⟨1, _⟩ => show win0_5.index t (1 : Fin 2) * 128 + 1 * (j 1).val = win0_7.index t (1 : Fin 2) * 128 + 1 * (j 1).val; omega
  rw [h0, h1, h2, h3, h4, h5]

/-- An index of the array is in point `t`'s block iff each coordinate is in the block's range on its axis. -/
theorem mem_blk0_7 (t : Fin cfg0.N) (i : S8192x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v31_1).slice (win0_7.rect t)).set ↔ _
  rw [View.set_slice_whole, Rect.mem_set_unit]
  exact Iff.rfl

/-- Every index of the array is in the block of the point its row falls in. -/
theorem cover0_7 (i : S8192x128.Idx) :
    ∃ t : Fin cfg0.N, (cfg0.win 7).flush t = true ∧ i ∈ ((cfg0.win 7).blk t).view.set := by
  have hi0 : (i 0).val < 8192 := (i 0).isLt
  have hi1 : (i 1).val < 128 := (i 1).isLt
  have hN : (i 0).val / 1024 < cfg0.N := by
    show (i 0).val / 1024 < grid0.N
    rw [N_0]; omega
  refine ⟨⟨(i 0).val / 1024, hN⟩, flush0_7 _, ?_⟩
  rw [mem_blk0_7]
  obtain ⟨-, -, -, -, -, -, -, ⟨a7, b7⟩, -, -⟩ := idx0 ⟨(i 0).val / 1024, hN⟩
  have a7' : win0_7.index ⟨(i 0).val / 1024, hN⟩ (0 : Fin 2) = (i 0).val / 1024 := a7
  intro a
  match a with
  | ⟨0, _⟩ => show win0_7.index ⟨(i 0).val / 1024, hN⟩ (0 : Fin 2) * 1024 ≤ (i 0).val ∧ (i 0).val < win0_7.index ⟨(i 0).val / 1024, hN⟩ (0 : Fin 2) * 1024 + 1024; omega
  | ⟨1, _⟩ => show win0_7.index ⟨(i 0).val / 1024, hN⟩ (1 : Fin 2) * 128 ≤ (i 1).val ∧ (i 1).val < win0_7.index ⟨(i 0).val / 1024, hN⟩ (1 : Fin 2) * 128 + 128; omega

/-- After region 0, result array 1 is the conduit size, node by node. -/
theorem arr0_7 (c : Dev nD) : (dat0 V c).arrAt 7 cfg0.N
    = fun i : S8192x128.Idx => Cert.Glacier.conduit (V c main_v20 i) (V c main_v22 i) (V c main_v24 i) (V c main_v26 i) (V c main_v28 i) (V c main_v30 i) :=
  (dat0 V c).arrAt_eq_of_cover 7 _ (fun t _ => flushed0_7 V c t) cover0_7

/-! ## Region 0, result window 8: the melt term -/

/-- What point `t` writes back is block `t` of the pointwise function of the operand arrays. -/
theorem flushed0_8 (c : Dev nD) (t : Fin cfg0.N) :
    (dat0 V c).flushed 8 t = ((cfg0.win 8).blk t).view.read (Elt F)
      (fun i : S8192x128.Idx => Cert.Glacier.meltTerm (V c main_v20 i) (V c main_v22 i) (V c main_v24 i) (V c main_v26 i) (V c main_v28 i) (V c main_v30 i)) := by
  show (cfg0.win 8).cut (grid0.coords t) ((dat0 V c).after 8 t) = _
  rw [after0_8]
  unfold out0_8
  rw [View.canon_unit_zero hz]
  simp only [View.ld_unit_zero (S := S1024x128) hz]
  rw [pay0_melt]
  obtain ⟨⟨a0, b0⟩, ⟨a1, b1⟩, ⟨a2, b2⟩, ⟨a3, b3⟩, ⟨a4, b4⟩, ⟨a5, b5⟩, -, -, ⟨a8, b8⟩, -⟩ := idx0 t
  funext j
  show Cert.Glacier.meltTerm (V c main_v20 (((cfg0.win 0).blk t).view.emb j)) (V c main_v22 (((cfg0.win 1).blk t).view.emb j)) (V c main_v24 (((cfg0.win 2).blk t).view.emb j)) (V c main_v26 (((cfg0.win 3).blk t).view.emb j)) (V c main_v28 (((cfg0.win 4).blk t).view.emb j)) (V c main_v30 (((cfg0.win 5).blk t).view.emb j))
    = Cert.Glacier.meltTerm (V c main_v20 (((cfg0.win 8).blk t).view.emb j)) (V c main_v22 (((cfg0.win 8).blk t).view.emb j)) (V c main_v24 (((cfg0.win 8).blk t).view.emb j)) (V c main_v26 (((cfg0.win 8).blk t).view.emb j)) (V c main_v28 (((cfg0.win 8).blk t).view.emb j)) (V c main_v30 (((cfg0.win 8).blk t).view.emb j))
  have h0 : ((cfg0.win 0).blk t).view.emb j = ((cfg0.win 8).blk t).view.emb j := by
    funext a; apply Fin.ext
    match a with
    | ⟨0, _⟩ => show win0_0.index t (0 : Fin 2) * 1024 + 1 * (j 0).val = win0_8.index t (0 : Fin 2) * 1024 + 1 * (j 0).val; omega
    | ⟨1, _⟩ => show win0_0.index t (1 : Fin 2) * 128 + 1 * (j 1).val = win0_8.index t (1 : Fin 2) * 128 + 1 * (j 1).val; omega
  have h1 : ((cfg0.win 1).blk t).view.emb j = ((cfg0.win 8).blk t).view.emb j := by
    funext a; apply Fin.ext
    match a with
    | ⟨0, _⟩ => show win0_1.index t (0 : Fin 2) * 1024 + 1 * (j 0).val = win0_8.index t (0 : Fin 2) * 1024 + 1 * (j 0).val; omega
    | ⟨1, _⟩ => show win0_1.index t (1 : Fin 2) * 128 + 1 * (j 1).val = win0_8.index t (1 : Fin 2) * 128 + 1 * (j 1).val; omega
  have h2 : ((cfg0.win 2).blk t).view.emb j = ((cfg0.win 8).blk t).view.emb j := by
    funext a; apply Fin.ext
    match a with
    | ⟨0, _⟩ => show win0_2.index t (0 : Fin 2) * 1024 + 1 * (j 0).val = win0_8.index t (0 : Fin 2) * 1024 + 1 * (j 0).val; omega
    | ⟨1, _⟩ => show win0_2.index t (1 : Fin 2) * 128 + 1 * (j 1).val = win0_8.index t (1 : Fin 2) * 128 + 1 * (j 1).val; omega
  have h3 : ((cfg0.win 3).blk t).view.emb j = ((cfg0.win 8).blk t).view.emb j := by
    funext a; apply Fin.ext
    match a with
    | ⟨0, _⟩ => show win0_3.index t (0 : Fin 2) * 1024 + 1 * (j 0).val = win0_8.index t (0 : Fin 2) * 1024 + 1 * (j 0).val; omega
    | ⟨1, _⟩ => show win0_3.index t (1 : Fin 2) * 128 + 1 * (j 1).val = win0_8.index t (1 : Fin 2) * 128 + 1 * (j 1).val; omega
  have h4 : ((cfg0.win 4).blk t).view.emb j = ((cfg0.win 8).blk t).view.emb j := by
    funext a; apply Fin.ext
    match a with
    | ⟨0, _⟩ => show win0_4.index t (0 : Fin 2) * 1024 + 1 * (j 0).val = win0_8.index t (0 : Fin 2) * 1024 + 1 * (j 0).val; omega
    | ⟨1, _⟩ => show win0_4.index t (1 : Fin 2) * 128 + 1 * (j 1).val = win0_8.index t (1 : Fin 2) * 128 + 1 * (j 1).val; omega
  have h5 : ((cfg0.win 5).blk t).view.emb j = ((cfg0.win 8).blk t).view.emb j := by
    funext a; apply Fin.ext
    match a with
    | ⟨0, _⟩ => show win0_5.index t (0 : Fin 2) * 1024 + 1 * (j 0).val = win0_8.index t (0 : Fin 2) * 1024 + 1 * (j 0).val; omega
    | ⟨1, _⟩ => show win0_5.index t (1 : Fin 2) * 128 + 1 * (j 1).val = win0_8.index t (1 : Fin 2) * 128 + 1 * (j 1).val; omega
  rw [h0, h1, h2, h3, h4, h5]

/-- An index of the array is in point `t`'s block iff each coordinate is in the block's range on its axis. -/
theorem mem_blk0_8 (t : Fin cfg0.N) (i : S8192x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v31_2).slice (win0_8.rect t)).set ↔ _
  rw [View.set_slice_whole, Rect.mem_set_unit]
  exact Iff.rfl

/-- Every index of the array is in the block of the point its row falls in. -/
theorem cover0_8 (i : S8192x128.Idx) :
    ∃ t : Fin cfg0.N, (cfg0.win 8).flush t = true ∧ i ∈ ((cfg0.win 8).blk t).view.set := by
  have hi0 : (i 0).val < 8192 := (i 0).isLt
  have hi1 : (i 1).val < 128 := (i 1).isLt
  have hN : (i 0).val / 1024 < cfg0.N := by
    show (i 0).val / 1024 < grid0.N
    rw [N_0]; omega
  refine ⟨⟨(i 0).val / 1024, hN⟩, flush0_8 _, ?_⟩
  rw [mem_blk0_8]
  obtain ⟨-, -, -, -, -, -, -, -, ⟨a8, b8⟩, -⟩ := idx0 ⟨(i 0).val / 1024, hN⟩
  have a8' : win0_8.index ⟨(i 0).val / 1024, hN⟩ (0 : Fin 2) = (i 0).val / 1024 := a8
  intro a
  match a with
  | ⟨0, _⟩ => show win0_8.index ⟨(i 0).val / 1024, hN⟩ (0 : Fin 2) * 1024 ≤ (i 0).val ∧ (i 0).val < win0_8.index ⟨(i 0).val / 1024, hN⟩ (0 : Fin 2) * 1024 + 1024; omega
  | ⟨1, _⟩ => show win0_8.index ⟨(i 0).val / 1024, hN⟩ (1 : Fin 2) * 128 ≤ (i 1).val ∧ (i 1).val < win0_8.index ⟨(i 0).val / 1024, hN⟩ (1 : Fin 2) * 128 + 128; omega

/-- After region 0, result array 2 is the melt term, node by node. -/
theorem arr0_8 (c : Dev nD) : (dat0 V c).arrAt 8 cfg0.N
    = fun i : S8192x128.Idx => Cert.Glacier.meltTerm (V c main_v20 i) (V c main_v22 i) (V c main_v24 i) (V c main_v26 i) (V c main_v28 i) (V c main_v30 i) :=
  (dat0 V c).arrAt_eq_of_cover 8 _ (fun t _ => flushed0_8 V c t) cover0_8

/-! ## Region 0, result window 9: the closure term -/

/-- What point `t` writes back is block `t` of the pointwise function of the operand arrays. -/
theorem flushed0_9 (c : Dev nD) (t : Fin cfg0.N) :
    (dat0 V c).flushed 9 t = ((cfg0.win 9).blk t).view.read (Elt F)
      (fun i : S8192x128.Idx => Cert.Glacier.closureTerm (V c main_v20 i) (V c main_v22 i) (V c main_v24 i) (V c main_v26 i) (V c main_v28 i) (V c main_v30 i)) := by
  show (cfg0.win 9).cut (grid0.coords t) ((dat0 V c).after 9 t) = _
  rw [after0_9]
  unfold out0_9
  rw [View.canon_unit_zero hz]
  simp only [View.ld_unit_zero (S := S1024x128) hz]
  rw [pay0_closure]
  obtain ⟨⟨a0, b0⟩, ⟨a1, b1⟩, ⟨a2, b2⟩, ⟨a3, b3⟩, ⟨a4, b4⟩, ⟨a5, b5⟩, -, -, -, ⟨a9, b9⟩⟩ := idx0 t
  funext j
  show Cert.Glacier.closureTerm (V c main_v20 (((cfg0.win 0).blk t).view.emb j)) (V c main_v22 (((cfg0.win 1).blk t).view.emb j)) (V c main_v24 (((cfg0.win 2).blk t).view.emb j)) (V c main_v26 (((cfg0.win 3).blk t).view.emb j)) (V c main_v28 (((cfg0.win 4).blk t).view.emb j)) (V c main_v30 (((cfg0.win 5).blk t).view.emb j))
    = Cert.Glacier.closureTerm (V c main_v20 (((cfg0.win 9).blk t).view.emb j)) (V c main_v22 (((cfg0.win 9).blk t).view.emb j)) (V c main_v24 (((cfg0.win 9).blk t).view.emb j)) (V c main_v26 (((cfg0.win 9).blk t).view.emb j)) (V c main_v28 (((cfg0.win 9).blk t).view.emb j)) (V c main_v30 (((cfg0.win 9).blk t).view.emb j))
  have h0 : ((cfg0.win 0).blk t).view.emb j = ((cfg0.win 9).blk t).view.emb j := by
    funext a; apply Fin.ext
    match a with
    | ⟨0, _⟩ => show win0_0.index t (0 : Fin 2) * 1024 + 1 * (j 0).val = win0_9.index t (0 : Fin 2) * 1024 + 1 * (j 0).val; omega
    | ⟨1, _⟩ => show win0_0.index t (1 : Fin 2) * 128 + 1 * (j 1).val = win0_9.index t (1 : Fin 2) * 128 + 1 * (j 1).val; omega
  have h1 : ((cfg0.win 1).blk t).view.emb j = ((cfg0.win 9).blk t).view.emb j := by
    funext a; apply Fin.ext
    match a with
    | ⟨0, _⟩ => show win0_1.index t (0 : Fin 2) * 1024 + 1 * (j 0).val = win0_9.index t (0 : Fin 2) * 1024 + 1 * (j 0).val; omega
    | ⟨1, _⟩ => show win0_1.index t (1 : Fin 2) * 128 + 1 * (j 1).val = win0_9.index t (1 : Fin 2) * 128 + 1 * (j 1).val; omega
  have h2 : ((cfg0.win 2).blk t).view.emb j = ((cfg0.win 9).blk t).view.emb j := by
    funext a; apply Fin.ext
    match a with
    | ⟨0, _⟩ => show win0_2.index t (0 : Fin 2) * 1024 + 1 * (j 0).val = win0_9.index t (0 : Fin 2) * 1024 + 1 * (j 0).val; omega
    | ⟨1, _⟩ => show win0_2.index t (1 : Fin 2) * 128 + 1 * (j 1).val = win0_9.index t (1 : Fin 2) * 128 + 1 * (j 1).val; omega
  have h3 : ((cfg0.win 3).blk t).view.emb j = ((cfg0.win 9).blk t).view.emb j := by
    funext a; apply Fin.ext
    match a with
    | ⟨0, _⟩ => show win0_3.index t (0 : Fin 2) * 1024 + 1 * (j 0).val = win0_9.index t (0 : Fin 2) * 1024 + 1 * (j 0).val; omega
    | ⟨1, _⟩ => show win0_3.index t (1 : Fin 2) * 128 + 1 * (j 1).val = win0_9.index t (1 : Fin 2) * 128 + 1 * (j 1).val; omega
  have h4 : ((cfg0.win 4).blk t).view.emb j = ((cfg0.win 9).blk t).view.emb j := by
    funext a; apply Fin.ext
    match a with
    | ⟨0, _⟩ => show win0_4.index t (0 : Fin 2) * 1024 + 1 * (j 0).val = win0_9.index t (0 : Fin 2) * 1024 + 1 * (j 0).val; omega
    | ⟨1, _⟩ => show win0_4.index t (1 : Fin 2) * 128 + 1 * (j 1).val = win0_9.index t (1 : Fin 2) * 128 + 1 * (j 1).val; omega
  have h5 : ((cfg0.win 5).blk t).view.emb j = ((cfg0.win 9).blk t).view.emb j := by
    funext a; apply Fin.ext
    match a with
    | ⟨0, _⟩ => show win0_5.index t (0 : Fin 2) * 1024 + 1 * (j 0).val = win0_9.index t (0 : Fin 2) * 1024 + 1 * (j 0).val; omega
    | ⟨1, _⟩ => show win0_5.index t (1 : Fin 2) * 128 + 1 * (j 1).val = win0_9.index t (1 : Fin 2) * 128 + 1 * (j 1).val; omega
  rw [h0, h1, h2, h3, h4, h5]

/-- An index of the array is in point `t`'s block iff each coordinate is in the block's range on its axis. -/
theorem mem_blk0_9 (t : Fin cfg0.N) (i : S8192x128.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v31_3).slice (win0_9.rect t)).set ↔ _
  rw [View.set_slice_whole, Rect.mem_set_unit]
  exact Iff.rfl

/-- Every index of the array is in the block of the point its row falls in. -/
theorem cover0_9 (i : S8192x128.Idx) :
    ∃ t : Fin cfg0.N, (cfg0.win 9).flush t = true ∧ i ∈ ((cfg0.win 9).blk t).view.set := by
  have hi0 : (i 0).val < 8192 := (i 0).isLt
  have hi1 : (i 1).val < 128 := (i 1).isLt
  have hN : (i 0).val / 1024 < cfg0.N := by
    show (i 0).val / 1024 < grid0.N
    rw [N_0]; omega
  refine ⟨⟨(i 0).val / 1024, hN⟩, flush0_9 _, ?_⟩
  rw [mem_blk0_9]
  obtain ⟨-, -, -, -, -, -, -, -, -, ⟨a9, b9⟩⟩ := idx0 ⟨(i 0).val / 1024, hN⟩
  have a9' : win0_9.index ⟨(i 0).val / 1024, hN⟩ (0 : Fin 2) = (i 0).val / 1024 := a9
  intro a
  match a with
  | ⟨0, _⟩ => show win0_9.index ⟨(i 0).val / 1024, hN⟩ (0 : Fin 2) * 1024 ≤ (i 0).val ∧ (i 0).val < win0_9.index ⟨(i 0).val / 1024, hN⟩ (0 : Fin 2) * 1024 + 1024; omega
  | ⟨1, _⟩ => show win0_9.index ⟨(i 0).val / 1024, hN⟩ (1 : Fin 2) * 128 ≤ (i 1).val ∧ (i 1).val < win0_9.index ⟨(i 0).val / 1024, hN⟩ (1 : Fin 2) * 128 + 128; omega

/-- After region 0, result array 3 is the closure term, node by node. -/
theorem arr0_9 (c : Dev nD) : (dat0 V c).arrAt 9 cfg0.N
    = fun i : S8192x128.Idx => Cert.Glacier.closureTerm (V c main_v20 i) (V c main_v22 i) (V c main_v24 i) (V c main_v26 i) (V c main_v28 i) (V c main_v30 i) :=
  (dat0 V c).arrAt_eq_of_cover 9 _ (fun t _ => flushed0_9 V c t) cover0_9

/-! ## Region 1: the index maps -/

/-- Every window of region 1 is at block `(t, 0)` at grid point `t` (decided over the 16 points). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-! ## Region 1, result window 6: the flux along each link -/

/-- What point `t` writes back is block `t` of the pointwise function of the operand arrays. -/
theorem flushed1_6 (c : Dev nD) (t : Fin cfg1.N) :
    (dat1 V c).flushed 6 t = ((cfg1.win 6).blk t).view.read (Elt F)
      (fun i : S16384x128.Idx => Cert.Glacier.linkFlux (V c main_v69 i) (V c main_v71 i) (V c main_v73 i) (V c main_v75 i) (V c main_v77 i) (V c main_v79 i)) := by
  show (cfg1.win 6).cut (grid1.coords t) ((dat1 V c).after 6 t) = _
  rw [after1_6]
  unfold out1_6
  rw [View.canon_unit_zero hz]
  simp only [View.ld_unit_zero (S := S1024x128) hz]
  rw [pay1_1]
  obtain ⟨⟨a0, b0⟩, ⟨a1, b1⟩, ⟨a2, b2⟩, ⟨a3, b3⟩, ⟨a4, b4⟩, ⟨a5, b5⟩, ⟨a6, b6⟩⟩ := idx1 t
  funext j
  show Cert.Glacier.linkFlux (V c main_v69 (((cfg1.win 0).blk t).view.emb j)) (V c main_v71 (((cfg1.win 1).blk t).view.emb j)) (V c main_v73 (((cfg1.win 2).blk t).view.emb j)) (V c main_v75 (((cfg1.win 3).blk t).view.emb j)) (V c main_v77 (((cfg1.win 4).blk t).view.emb j)) (V c main_v79 (((cfg1.win 5).blk t).view.emb j))
    = Cert.Glacier.linkFlux (V c main_v69 (((cfg1.win 6).blk t).view.emb j)) (V c main_v71 (((cfg1.win 6).blk t).view.emb j)) (V c main_v73 (((cfg1.win 6).blk t).view.emb j)) (V c main_v75 (((cfg1.win 6).blk t).view.emb j)) (V c main_v77 (((cfg1.win 6).blk t).view.emb j)) (V c main_v79 (((cfg1.win 6).blk t).view.emb j))
  have h0 : ((cfg1.win 0).blk t).view.emb j = ((cfg1.win 6).blk t).view.emb j := by
    funext a; apply Fin.ext
    match a with
    | ⟨0, _⟩ => show win1_0.index t (0 : Fin 2) * 1024 + 1 * (j 0).val = win1_6.index t (0 : Fin 2) * 1024 + 1 * (j 0).val; omega
    | ⟨1, _⟩ => show win1_0.index t (1 : Fin 2) * 128 + 1 * (j 1).val = win1_6.index t (1 : Fin 2) * 128 + 1 * (j 1).val; omega
  have h1 : ((cfg1.win 1).blk t).view.emb j = ((cfg1.win 6).blk t).view.emb j := by
    funext a; apply Fin.ext
    match a with
    | ⟨0, _⟩ => show win1_1.index t (0 : Fin 2) * 1024 + 1 * (j 0).val = win1_6.index t (0 : Fin 2) * 1024 + 1 * (j 0).val; omega
    | ⟨1, _⟩ => show win1_1.index t (1 : Fin 2) * 128 + 1 * (j 1).val = win1_6.index t (1 : Fin 2) * 128 + 1 * (j 1).val; omega
  have h2 : ((cfg1.win 2).blk t).view.emb j = ((cfg1.win 6).blk t).view.emb j := by
    funext a; apply Fin.ext
    match a with
    | ⟨0, _⟩ => show win1_2.index t (0 : Fin 2) * 1024 + 1 * (j 0).val = win1_6.index t (0 : Fin 2) * 1024 + 1 * (j 0).val; omega
    | ⟨1, _⟩ => show win1_2.index t (1 : Fin 2) * 128 + 1 * (j 1).val = win1_6.index t (1 : Fin 2) * 128 + 1 * (j 1).val; omega
  have h3 : ((cfg1.win 3).blk t).view.emb j = ((cfg1.win 6).blk t).view.emb j := by
    funext a; apply Fin.ext
    match a with
    | ⟨0, _⟩ => show win1_3.index t (0 : Fin 2) * 1024 + 1 * (j 0).val = win1_6.index t (0 : Fin 2) * 1024 + 1 * (j 0).val; omega
    | ⟨1, _⟩ => show win1_3.index t (1 : Fin 2) * 128 + 1 * (j 1).val = win1_6.index t (1 : Fin 2) * 128 + 1 * (j 1).val; omega
  have h4 : ((cfg1.win 4).blk t).view.emb j = ((cfg1.win 6).blk t).view.emb j := by
    funext a; apply Fin.ext
    match a with
    | ⟨0, _⟩ => show win1_4.index t (0 : Fin 2) * 1024 + 1 * (j 0).val = win1_6.index t (0 : Fin 2) * 1024 + 1 * (j 0).val; omega
    | ⟨1, _⟩ => show win1_4.index t (1 : Fin 2) * 128 + 1 * (j 1).val = win1_6.index t (1 : Fin 2) * 128 + 1 * (j 1).val; omega
  have h5 : ((cfg1.win 5).blk t).view.emb j = ((cfg1.win 6).blk t).view.emb j := by
    funext a; apply Fin.ext
    match a with
    | ⟨0, _⟩ => show win1_5.index t (0 : Fin 2) * 1024 + 1 * (j 0).val = win1_6.index t (0 : Fin 2) * 1024 + 1 * (j 0).val; omega
    | ⟨1, _⟩ => show win1_5.index t (1 : Fin 2) * 128 + 1 * (j 1).val = win1_6.index t (1 : Fin 2) * 128 + 1 * (j 1).val; omega
  rw [h0, h1, h2, h3, h4, h5]

/-- An index of the array is in point `t`'s block iff each coordinate is in the block's range on its axis. -/
theorem mem_blk1_6 (t : Fin cfg1.N) (i : S16384x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v80).slice (win1_6.rect t)).set ↔ _
  rw [View.set_slice_whole, Rect.mem_set_unit]
  exact Iff.rfl

/-- Every index of the array is in the block of the point its row falls in. -/
theorem cover1_6 (i : S16384x128.Idx) :
    ∃ t : Fin cfg1.N, (cfg1.win 6).flush t = true ∧ i ∈ ((cfg1.win 6).blk t).view.set := by
  have hi0 : (i 0).val < 16384 := (i 0).isLt
  have hi1 : (i 1).val < 128 := (i 1).isLt
  have hN : (i 0).val / 1024 < cfg1.N := by
    show (i 0).val / 1024 < grid1.N
    rw [N_1]; omega
  refine ⟨⟨(i 0).val / 1024, hN⟩, flush1_6 _, ?_⟩
  rw [mem_blk1_6]
  obtain ⟨-, -, -, -, -, -, ⟨a6, b6⟩⟩ := idx1 ⟨(i 0).val / 1024, hN⟩
  have a6' : win1_6.index ⟨(i 0).val / 1024, hN⟩ (0 : Fin 2) = (i 0).val / 1024 := a6
  intro a
  match a with
  | ⟨0, _⟩ => show win1_6.index ⟨(i 0).val / 1024, hN⟩ (0 : Fin 2) * 1024 ≤ (i 0).val ∧ (i 0).val < win1_6.index ⟨(i 0).val / 1024, hN⟩ (0 : Fin 2) * 1024 + 1024; omega
  | ⟨1, _⟩ => show win1_6.index ⟨(i 0).val / 1024, hN⟩ (1 : Fin 2) * 128 ≤ (i 1).val ∧ (i 1).val < win1_6.index ⟨(i 0).val / 1024, hN⟩ (1 : Fin 2) * 128 + 128; omega

/-- After region 1, its result array is the flux, link by link. -/
theorem arr1_6 (c : Dev nD) : (dat1 V c).arrAt 6 cfg1.N
    = fun i : S16384x128.Idx => Cert.Glacier.linkFlux (V c main_v69 i) (V c main_v71 i) (V c main_v73 i) (V c main_v75 i) (V c main_v77 i) (V c main_v79 i) :=
  (dat1 V c).arrAt_eq_of_cover 6 _ (fun t _ => flushed1_6 V c t) cover1_6

/-! ## Region 2: the index maps -/

/-- Every window of region 2 is at block `(t, 0)` at grid point `t` (decided over the 8 points). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0) :=
  (by decide +kernel : ∀ t : Fin grid2.N, _)

/-! ## Region 2, result window 5: the residual -/

/-- What point `t` writes back is block `t` of the pointwise function of the operand arrays. -/
theorem flushed2_5 (c : Dev nD) (t : Fin cfg2.N) :
    (dat2 V c).flushed 5 t = ((cfg2.win 5).blk t).view.read (Elt F)
      (fun i : S8192x128.Idx => Cert.Glacier.residual (V c main_v91 i) (V c main_v93 i) (V c main_v95 i) (V c main_v97 i) (V c main_v99 i)) := by
  show (cfg2.win 5).cut (grid2.coords t) ((dat2 V c).after 5 t) = _
  rw [after2_5]
  unfold out2_5
  rw [View.canon_unit_zero hz]
  simp only [View.ld_unit_zero (S := S1024x128) hz]
  rw [pay2_1]
  obtain ⟨⟨a0, b0⟩, ⟨a1, b1⟩, ⟨a2, b2⟩, ⟨a3, b3⟩, ⟨a4, b4⟩, ⟨a5, b5⟩⟩ := idx2 t
  funext j
  show Cert.Glacier.residual (V c main_v91 (((cfg2.win 0).blk t).view.emb j)) (V c main_v93 (((cfg2.win 1).blk t).view.emb j)) (V c main_v95 (((cfg2.win 2).blk t).view.emb j)) (V c main_v97 (((cfg2.win 3).blk t).view.emb j)) (V c main_v99 (((cfg2.win 4).blk t).view.emb j))
    = Cert.Glacier.residual (V c main_v91 (((cfg2.win 5).blk t).view.emb j)) (V c main_v93 (((cfg2.win 5).blk t).view.emb j)) (V c main_v95 (((cfg2.win 5).blk t).view.emb j)) (V c main_v97 (((cfg2.win 5).blk t).view.emb j)) (V c main_v99 (((cfg2.win 5).blk t).view.emb j))
  have h0 : ((cfg2.win 0).blk t).view.emb j = ((cfg2.win 5).blk t).view.emb j := by
    funext a; apply Fin.ext
    match a with
    | ⟨0, _⟩ => show win2_0.index t (0 : Fin 2) * 1024 + 1 * (j 0).val = win2_5.index t (0 : Fin 2) * 1024 + 1 * (j 0).val; omega
    | ⟨1, _⟩ => show win2_0.index t (1 : Fin 2) * 128 + 1 * (j 1).val = win2_5.index t (1 : Fin 2) * 128 + 1 * (j 1).val; omega
  have h1 : ((cfg2.win 1).blk t).view.emb j = ((cfg2.win 5).blk t).view.emb j := by
    funext a; apply Fin.ext
    match a with
    | ⟨0, _⟩ => show win2_1.index t (0 : Fin 2) * 1024 + 1 * (j 0).val = win2_5.index t (0 : Fin 2) * 1024 + 1 * (j 0).val; omega
    | ⟨1, _⟩ => show win2_1.index t (1 : Fin 2) * 128 + 1 * (j 1).val = win2_5.index t (1 : Fin 2) * 128 + 1 * (j 1).val; omega
  have h2 : ((cfg2.win 2).blk t).view.emb j = ((cfg2.win 5).blk t).view.emb j := by
    funext a; apply Fin.ext
    match a with
    | ⟨0, _⟩ => show win2_2.index t (0 : Fin 2) * 1024 + 1 * (j 0).val = win2_5.index t (0 : Fin 2) * 1024 + 1 * (j 0).val; omega
    | ⟨1, _⟩ => show win2_2.index t (1 : Fin 2) * 128 + 1 * (j 1).val = win2_5.index t (1 : Fin 2) * 128 + 1 * (j 1).val; omega
  have h3 : ((cfg2.win 3).blk t).view.emb j = ((cfg2.win 5).blk t).view.emb j := by
    funext a; apply Fin.ext
    match a with
    | ⟨0, _⟩ => show win2_3.index t (0 : Fin 2) * 1024 + 1 * (j 0).val = win2_5.index t (0 : Fin 2) * 1024 + 1 * (j 0).val; omega
    | ⟨1, _⟩ => show win2_3.index t (1 : Fin 2) * 128 + 1 * (j 1).val = win2_5.index t (1 : Fin 2) * 128 + 1 * (j 1).val; omega
  have h4 : ((cfg2.win 4).blk t).view.emb j = ((cfg2.win 5).blk t).view.emb j := by
    funext a; apply Fin.ext
    match a with
    | ⟨0, _⟩ => show win2_4.index t (0 : Fin 2) * 1024 + 1 * (j 0).val = win2_5.index t (0 : Fin 2) * 1024 + 1 * (j 0).val; omega
    | ⟨1, _⟩ => show win2_4.index t (1 : Fin 2) * 128 + 1 * (j 1).val = win2_5.index t (1 : Fin 2) * 128 + 1 * (j 1).val; omega
  rw [h0, h1, h2, h3, h4]

/-- An index of the array is in point `t`'s block iff each coordinate is in the block's range on its axis. -/
theorem mem_blk2_5 (t : Fin cfg2.N) (i : S8192x128.Idx) :
    i ∈ ((cfg2.win 5).blk t).view.set ↔ ∀ a : Fin 2, win2_5.index t a * S1024x128.size a ≤ (i a).val ∧ (i a).val < win2_5.index t a * S1024x128.size a + S1024x128.size a := by
  show i ∈ ((View.whole main_v100).slice (win2_5.rect t)).set ↔ _
  rw [View.set_slice_whole, Rect.mem_set_unit]
  exact Iff.rfl

/-- Every index of the array is in the block of the point its row falls in. -/
theorem cover2_5 (i : S8192x128.Idx) :
    ∃ t : Fin cfg2.N, (cfg2.win 5).flush t = true ∧ i ∈ ((cfg2.win 5).blk t).view.set := by
  have hi0 : (i 0).val < 8192 := (i 0).isLt
  have hi1 : (i 1).val < 128 := (i 1).isLt
  have hN : (i 0).val / 1024 < cfg2.N := by
    show (i 0).val / 1024 < grid2.N
    rw [N_2]; omega
  refine ⟨⟨(i 0).val / 1024, hN⟩, flush2_5 _, ?_⟩
  rw [mem_blk2_5]
  obtain ⟨-, -, -, -, -, ⟨a5, b5⟩⟩ := idx2 ⟨(i 0).val / 1024, hN⟩
  have a5' : win2_5.index ⟨(i 0).val / 1024, hN⟩ (0 : Fin 2) = (i 0).val / 1024 := a5
  intro a
  match a with
  | ⟨0, _⟩ => show win2_5.index ⟨(i 0).val / 1024, hN⟩ (0 : Fin 2) * 1024 ≤ (i 0).val ∧ (i 0).val < win2_5.index ⟨(i 0).val / 1024, hN⟩ (0 : Fin 2) * 1024 + 1024; omega
  | ⟨1, _⟩ => show win2_5.index ⟨(i 0).val / 1024, hN⟩ (1 : Fin 2) * 128 ≤ (i 1).val ∧ (i 1).val < win2_5.index ⟨(i 0).val / 1024, hN⟩ (1 : Fin 2) * 128 + 128; omega

/-- After region 2, its result array is the residual, node by node. -/
theorem arr2_5 (c : Dev nD) : (dat2 V c).arrAt 5 cfg2.N
    = fun i : S8192x128.Idx => Cert.Glacier.residual (V c main_v91 i) (V c main_v93 i) (V c main_v95 i) (V c main_v97 i) (V c main_v99 i) :=
  (dat2 V c).arrAt_eq_of_cover 5 _ (fun t _ => flushed2_5 V c t) cover2_5

end Cert.KernelIdeal.RegionArrays

end
-- ==== Proof.KernelRun.lean ====
/-
  The kernel program's run with its result read: every weakly fair execution of the three regions among their
  stretches of host operations terminates, nothing faulting, with the result array at what the last stretch of host
  operations leaves there, as a fold over the launch memory through every stretch and every region's write-backs
  (the boundary contents `Gen.W41`), and the argument arrays as launched. The result buffer is an unscoped buffer
  like the arguments, so the last thread state — every unscoped buffer held at the last boundary's contents, nothing
  owed — gives its final contents exactly as it gives theirs.
-/
import proofs.«154982_j65609920413788_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    array ends at the last boundary's contents and every argument array as launched. -/
theorem run_result : θ_run defs (onTc (τ := τ) (main (F := F))) ⟨m, fun _ => 0, ρ⟩ (fun r => ∀ c : Dev nD,
      r.2.mem ((c.tc : Thread nD τ).loc main_v102) = W41 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W41 m ρ c b)
    (hfin := fun c s' => by
      iintro ⟨⟨Hh, -⟩, HSI⟩
      unfold StableHlo.held
      imodintro
      iapply (pointsTo_read_all (Pipeline.ucRefs τ sig) (fun b => (((c : Thread nD τ)).1, b)) (W41 m ρ c) s')
      isplitl [Hh] <;> iassumption)
    (hQ := fun s h c =>
      ⟨h c _ (mem_uc main_v102 (by decide)),
       (h c _ (mem_uc main_arg0 (by decide))).trans (W41_main_arg0 m ρ c),
       (h c _ (mem_uc main_arg1 (by decide))).trans (W41_main_arg1 m ρ c),
       (h c _ (mem_uc main_arg2 (by decide))).trans (W41_main_arg2 m ρ c),
       (h c _ (mem_uc main_arg3 (by decide))).trans (W41_main_arg3 m ρ c),
       (h c _ (mem_uc main_arg4 (by decide))).trans (W41_main_arg4 m ρ c),
       (h c _ (mem_uc main_arg5 (by decide))).trans (W41_main_arg5 m ρ c),
       (h c _ (mem_uc main_arg6 (by decide))).trans (W41_main_arg6 m ρ c),
       (h c _ (mem_uc main_arg7 (by decide))).trans (W41_main_arg7 m ρ c),
       (h c _ (mem_uc main_arg8 (by decide))).trans (W41_main_arg8 m ρ c),
       (h c _ (mem_uc main_arg9 (by decide))).trans (W41_main_arg9 m ρ c),
       (h c _ (mem_uc main_arg10 (by decide))).trans (W41_main_arg10 m ρ c)⟩)

end Cert.KernelIdeal.Run

end
-- ==== Proof.KernelValue.lean ====
/-
  The kernel program's result as one function of its argument arrays.

  The program pads each flat node (link) array to whole tiles, lays it out as rows of 128 lanes, runs a pointwise
  pass over the tiles, and cuts the result back to the nodes (links); between the passes it gathers node values at
  the links' ends and sums link values into the nodes. Padding, layout and cutting back cancel at every node and
  link (the node's cell holds the node's entry), so each pass is the same pointwise function of the flat arrays:
    pass 1 (nodes): the head with boundary conditions, the conduit size, the melt term and the closure term from
      the head, bedrock, boundary flag, overburden, geothermal flux and the mean sliding velocity at the node;
    pass 2 (links): the flux from the head and conduit size at the link's two nodes, its length and its Reynolds number;
    pass 3 (nodes): the residual from the net flux, the boundary flag, the area and the melt and closure terms.
-/
import proofs.«154982_j65609920413788_1_alg».proof.Proof.HostChain
import proofs.«154982_j65609920413788_1_alg».proof.Proof.RegionArrays
import proofs.«154982_j65609920413788_1_alg».proof.Proof.KernelRun
import proofs.«154982_j65609920413788_1_alg».proof.Proof.Glacier

set_option maxRecDepth 16384

noncomputable section

namespace Cert.KernelIdeal.Whole

open Cert.KernelIdeal Cert.KernelIdeal.Gen Cert.KernelIdeal.HostChain Cert.KernelIdeal.RegionArrays Cert.Glacier
open Idealize.ShloMosaic Idealize.ShloMosaic.TcCoe Idealize.SL.Sem

variable {F : FTy → Type} [FloatOps F]

/-! ## The passes over the flat arrays -/

/-- The head with boundary conditions at every node. -/
def headA (x0 x4 : FVec F S1000000 .f32) (x10 : IVec S1000000 1) : FVec F S1000000 .f32 :=
  fun i => headBc (x0 i) (x4 i) ((x10 i).setWidth 32)

/-- The conduit size at every node. -/
def conduitA (x0 x4 x5 x6 : FVec F S1000000 .f32) (x7 : FVec F S2000000 .f32) (x8 x9 : IVec S2000000 32) (x10 : IVec S1000000 1) : FVec F S1000000 .f32 :=
  fun i => conduit (x0 i) (x4 i) ((x10 i).setWidth 32) (x5 i) (x6 i) (segMean x7 x8 x9 i)

/-- The melt term at every node. -/
def meltA (x0 x4 x5 x6 : FVec F S1000000 .f32) (x7 : FVec F S2000000 .f32) (x8 x9 : IVec S2000000 32) (x10 : IVec S1000000 1) : FVec F S1000000 .f32 :=
  fun i => meltTerm (x0 i) (x4 i) ((x10 i).setWidth 32) (x5 i) (x6 i) (segMean x7 x8 x9 i)

/-- The closure term at every node. -/
def closureA (x0 x4 x5 x6 : FVec F S1000000 .f32) (x7 : FVec F S2000000 .f32) (x8 x9 : IVec S2000000 32) (x10 : IVec S1000000 1) : FVec F S1000000 .f32 :=
  fun i => closureTerm (x0 i) (x4 i) ((x10 i).setWidth 32) (x5 i) (x6 i) (segMean x7 x8 x9 i)

/-- The flux along every link: head and conduit size read at the link's head (`x9`) and tail (`x8`) nodes. -/
def fluxA (x0 : FVec F S1000000 .f32) (x1 x2 : FVec F S2000000 .f32) (x4 x5 x6 : FVec F S1000000 .f32)
    (x7 : FVec F S2000000 .f32) (x8 x9 : IVec S2000000 32) (x10 : IVec S1000000 1) : FVec F S2000000 .f32 :=
  fun i => linkFlux (takeAt (headA x0 x4 x10) x9 i) (takeAt (headA x0 x4 x10) x8 i) (x2 i)
    (takeAt (conduitA x0 x4 x5 x6 x7 x8 x9 x10) x9 i) (takeAt (conduitA x0 x4 x5 x6 x7 x8 x9 x10) x8 i) (x1 i)

/-- The residual at every node. -/
def outA (x0 : FVec F S1000000 .f32) (x1 x2 : FVec F S2000000 .f32) (x3 x4 x5 x6 : FVec F S1000000 .f32)
    (x7 : FVec F S2000000 .f32) (x8 x9 : IVec S2000000 32) (x10 : IVec S1000000 1) : FVec F S1000000 .f32 :=
  fun i => residual (netFlux (fluxA x0 x1 x2 x4 x5 x6 x7 x8 x9 x10) x8 x9 i) ((x10 i).setWidth 32) (x3 i)
    (meltA x0 x4 x5 x6 x7 x8 x9 x10 i) (closureA x0 x4 x5 x6 x7 x8 x9 x10 i)

variable (m : (ℓ : Loc nD τ sig) → Buf (Elt F) ℓ) (ρ : Dev nD → PrngReg)

/-! ## The argument arrays, read where a later region is entered -/

theorem at14_arg1 (c : Dev nD) : W14 m ρ c (Proc.devRef .tc main_arg1) = m ((c : Thread nD τ).loc main_arg1) :=
  (W14_of_ne m ρ c main_arg1 (by decide)).trans (keep0_arg1 m ρ c)
theorem at14_arg2 (c : Dev nD) : W14 m ρ c (Proc.devRef .tc main_arg2) = m ((c : Thread nD τ).loc main_arg2) :=
  (W14_of_ne m ρ c main_arg2 (by decide)).trans (keep0_arg2 m ρ c)
theorem at14_arg3 (c : Dev nD) : W14 m ρ c (Proc.devRef .tc main_arg3) = m ((c : Thread nD τ).loc main_arg3) :=
  (W14_of_ne m ρ c main_arg3 (by decide)).trans (keep0_arg3 m ρ c)
theorem at14_arg8 (c : Dev nD) : W14 m ρ c (Proc.devRef .tc main_arg8) = m ((c : Thread nD τ).loc main_arg8) :=
  (W14_of_ne m ρ c main_arg8 (by decide)).trans (keep0_arg8 m ρ c)
theorem at14_arg9 (c : Dev nD) : W14 m ρ c (Proc.devRef .tc main_arg9) = m ((c : Thread nD τ).loc main_arg9) :=
  (W14_of_ne m ρ c main_arg9 (by decide)).trans (keep0_arg9 m ρ c)
theorem at14_v18 (c : Dev nD) :
    W14 m ρ c (Proc.devRef .tc main_v18) = extui 32 (m ((c : Thread nD τ).loc main_arg10)) Facts₀.natLt_1_32 :=
  (W14_of_ne m ρ c main_v18 (by decide)).trans (keep0_v18 m ρ c)

theorem at28_arg3 (c : Dev nD) : W28 m ρ c (Proc.devRef .tc main_arg3) = m ((c : Thread nD τ).loc main_arg3) :=
  (W28_of_ne m ρ c main_arg3 (by decide)).trans ((keep1_arg3 m ρ c).trans (at14_arg3 m ρ c))
theorem at28_arg8 (c : Dev nD) : W28 m ρ c (Proc.devRef .tc main_arg8) = m ((c : Thread nD τ).loc main_arg8) :=
  (W28_of_ne m ρ c main_arg8 (by decide)).trans ((keep1_arg8 m ρ c).trans (at14_arg8 m ρ c))
theorem at28_arg9 (c : Dev nD) : W28 m ρ c (Proc.devRef .tc main_arg9) = m ((c : Thread nD τ).loc main_arg9) :=
  (W28_of_ne m ρ c main_arg9 (by decide)).trans ((keep1_arg9 m ρ c).trans (at14_arg9 m ρ c))
theorem at28_v18 (c : Dev nD) :
    W28 m ρ c (Proc.devRef .tc main_v18) = extui 32 (m ((c : Thread nD τ).loc main_arg10)) Facts₀.natLt_1_32 :=
  (W28_of_ne m ρ c main_v18 (by decide)).trans ((keep1_v18 m ρ c).trans (at14_v18 m ρ c))

/-! ## Region 0: the node pass -/

theorem exit0_head (c : Dev nD) :
    unrowsN (W14 m ρ c (Proc.devRef .tc main_v31_0)) = headA (m ((c : Thread nD τ).loc main_arg0)) (m ((c : Thread nD τ).loc main_arg4)) (m ((c : Thread nD τ).loc main_arg10)) := by
  funext i
  rw [unrowsN_apply, show W14 m ρ c (Proc.devRef .tc main_v31_0) = (dat0 (V13 m ρ) c).arrAt 6 cfg0.N from W14_arr m ρ c 6,
    arr0_6 (V13 m ρ) c]
  show headBc (V13 m ρ c main_v20 (nodeCell i)) (V13 m ρ c main_v22 (nodeCell i)) (V13 m ρ c main_v24 (nodeCell i)) = _
  rw [in0_0, in0_1, in0_2]
  rfl

theorem exit0_conduit (c : Dev nD) :
    unrowsN (W14 m ρ c (Proc.devRef .tc main_v31_1)) = conduitA (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  rw [unrowsN_apply, show W14 m ρ c (Proc.devRef .tc main_v31_1) = (dat0 (V13 m ρ) c).arrAt 7 cfg0.N from W14_arr m ρ c 7,
    arr0_7 (V13 m ρ) c]
  show conduit (V13 m ρ c main_v20 (nodeCell i)) (V13 m ρ c main_v22 (nodeCell i)) (V13 m ρ c main_v24 (nodeCell i))
    (V13 m ρ c main_v26 (nodeCell i)) (V13 m ρ c main_v28 (nodeCell i)) (V13 m ρ c main_v30 (nodeCell i)) = _
  rw [in0_0, in0_1, in0_2, in0_3, in0_4, in0_5]
  rfl

theorem exit0_melt (c : Dev nD) :
    unrowsN (W14 m ρ c (Proc.devRef .tc main_v31_2)) = meltA (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  rw [unrowsN_apply, show W14 m ρ c (Proc.devRef .tc main_v31_2) = (dat0 (V13 m ρ) c).arrAt 8 cfg0.N from W14_arr m ρ c 8,
    arr0_8 (V13 m ρ) c]
  show meltTerm (V13 m ρ c main_v20 (nodeCell i)) (V13 m ρ c main_v22 (nodeCell i)) (V13 m ρ c main_v24 (nodeCell i))
    (V13 m ρ c main_v26 (nodeCell i)) (V13 m ρ c main_v28 (nodeCell i)) (V13 m ρ c main_v30 (nodeCell i)) = _
  rw [in0_0, in0_1, in0_2, in0_3, in0_4, in0_5]
  rfl

theorem exit0_closure (c : Dev nD) :
    unrowsN (W14 m ρ c (Proc.devRef .tc main_v31_3)) = closureA (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  rw [unrowsN_apply, show W14 m ρ c (Proc.devRef .tc main_v31_3) = (dat0 (V13 m ρ) c).arrAt 9 cfg0.N from W14_arr m ρ c 9,
    arr0_9 (V13 m ρ) c]
  show closureTerm (V13 m ρ c main_v20 (nodeCell i)) (V13 m ρ c main_v22 (nodeCell i)) (V13 m ρ c main_v24 (nodeCell i))
    (V13 m ρ c main_v26 (nodeCell i)) (V13 m ρ c main_v28 (nodeCell i)) (V13 m ρ c main_v30 (nodeCell i)) = _
  rw [in0_0, in0_1, in0_2, in0_3, in0_4, in0_5]
  rfl

theorem at28_v37 (c : Dev nD) : W28 m ρ c (Proc.devRef .tc main_v37) = meltA (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W28_of_ne m ρ c main_v37 (by decide)).trans ((keep1_v37 m ρ c).trans (exit0_melt m ρ c))
theorem at28_v39 (c : Dev nD) : W28 m ρ c (Proc.devRef .tc main_v39) = closureA (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W28_of_ne m ρ c main_v39 (by decide)).trans ((keep1_v39 m ρ c).trans (exit0_closure m ρ c))

/-! ## Region 1: the link pass -/

theorem exit1_flux (c : Dev nD) :
    unrowsL (W28 m ρ c (Proc.devRef .tc main_v80)) = fluxA (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  rw [unrowsL_apply, show W28 m ρ c (Proc.devRef .tc main_v80) = (dat1 (V27 m ρ) c).arrAt 6 cfg1.N from W28_arr m ρ c 6,
    arr1_6 (V27 m ρ) c]
  show linkFlux (V27 m ρ c main_v69 (linkCell i)) (V27 m ρ c main_v71 (linkCell i)) (V27 m ρ c main_v73 (linkCell i))
    (V27 m ρ c main_v75 (linkCell i)) (V27 m ρ c main_v77 (linkCell i)) (V27 m ρ c main_v79 (linkCell i)) = _
  rw [in1_0, in1_1, in1_2, in1_3, in1_4, in1_5, exit0_head, exit0_conduit, at14_arg9, at14_arg8, at14_arg2, at14_arg1]
  rfl

/-! ## Region 2: the last node pass, and the result -/

/-- The result array is the residual of the argument arrays. -/
theorem result_value (c : Dev nD) :
    W41 m ρ c (Proc.devRef .tc main_v102) = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [result_eq]
  funext i
  rw [unrowsN_apply, show W40 m ρ c (Proc.devRef .tc main_v100) = (dat2 (V39 m ρ) c).arrAt 5 cfg2.N from W40_arr m ρ c 5,
    arr2_5 (V39 m ρ) c]
  show residual (V39 m ρ c main_v91 (nodeCell i)) (V39 m ρ c main_v93 (nodeCell i)) (V39 m ρ c main_v95 (nodeCell i))
    (V39 m ρ c main_v97 (nodeCell i)) (V39 m ρ c main_v99 (nodeCell i)) = _
  rw [in2_0, in2_1, in2_2, in2_3, in2_4, exit1_flux, at28_arg8, at28_arg9, at28_v18, at28_arg3, at28_v37, at28_v39]
  rfl

/-- Every weakly fair execution of the kernel program terminates, nothing faulting, with the result array at the
    residual of the argument arrays and the argument arrays as launched. -/
theorem run : θ_run defs (onTc (τ := τ) (main (F := F))) ⟨m, fun _ => 0, ρ⟩ (fun r => ∀ c : Dev nD,
      r.2.mem ((c.tc : Thread nD τ).loc main_v102) = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_value m ρ c), (h c).2⟩) (Cert.KernelIdeal.Run.run_result m ρ)

end Cert.KernelIdeal.Whole

end
-- ==== Proof.RefAt.lean ====
/-
  The reference computation read at one node or one link.

  Each stage of the reference is a pointwise pass over the node arrays (or the link arrays); read at one index it
  is the scalar function of `Cert.Glacier` applied to what the operands hold at that index, at the extended reals.
  The reference and the scalar functions apply the same operations to the same literals in the same order, except:
  the reference selects on the one-bit boundary flag itself where the scalar functions test the flag widened to 32
  bits against zero; the link conduit adds tail + head where `linkConduit` adds head + tail; the cube of the link
  conduit is (s · s) · s where `transmissivity` has s · (s · s); the transmissivity is negated where `linkFlux` has
  0 - x. Gathers along the links, the mean sliding velocity and the net flux are left as the reference's stages.
-/
import proofs.«154982_j65609920413788_1_alg».proof.Proof.Gen.ReferenceIdeal.Read
import proofs.«154982_j65609920413788_1_alg».proof.Proof.Glacier
import Idealize.ShloMosaic.Lib.ValueIdx
import Idealize.ShloMosaic.PureOps.Ideal.Laws

noncomputable section

namespace Cert.ReferenceIdeal.RefAt

open Cert.ReferenceIdeal Cert.ReferenceIdeal.Read Idealize.ShloMosaic

/-- A one-bit word, widened to 32 bits and tested against zero, is the word itself. -/
theorem flag_setWidth (c : BitVec 1) : Cert.Glacier.flag (c.setWidth 32) = c := by
  rcases BitVec.eq_zero_or_eq_one c with h | h <;> subst h <;> decide

/-- The head with the boundary condition enforced, at a node. -/
theorem head_at (x0 x4 : (⟨S1000000, .f32⟩ : BufTy).Contents (Elt Ideal)) (x10 : (⟨S1000000, .i1⟩ : BufTy).Contents (Elt Ideal)) (i : S1000000.Idx) :
    val_main_v0 (F := Ideal) x0 x4 x10 i = Cert.Glacier.headBc (F := Ideal) (x0 i) (x4 i) ((x10 i).setWidth 32) := by
  rw [val_main_v0_apply, Cert.Glacier.headBc, flag_setWidth]

/-- The effective pressure at a node: the two clamps are the same compare-and-selects on both sides. -/
theorem effPressure_at (x0 x4 x5 : (⟨S1000000, .f32⟩ : BufTy).Contents (Elt Ideal)) (x10 : (⟨S1000000, .i1⟩ : BufTy).Contents (Elt Ideal)) (i : S1000000.Idx) :
    val_main_v25 (F := Ideal) x0 x4 x5 x10 i = Cert.Glacier.effPressure (F := Ideal) (x0 i) (x4 i) ((x10 i).setWidth 32) (x5 i) := by
  rewrite [val_main_v25_apply, val_main_v24_apply, val_main_v22_apply, val_main_v21_apply, val_main_v20_apply,
    val_main_v19_apply, val_main_v17_apply, val_main_v18_apply, val_main_cst_apply, val_main_v23_apply,
    val_main_cst_3_apply, val_main_call2_v1_apply, val_main_call2_v0_apply, val_main_cst_4_apply, head_at,
    Cert.Glacier.effPressure, Cert.Glacier.cappedPressure, Cert.Glacier.rawPressure]
  rfl

/-- The melt flux at a node. -/
theorem meltFlux_at (x0 x4 x5 x6 : (⟨S1000000, .f32⟩ : BufTy).Contents (Elt Ideal)) (x7 : (⟨S2000000, .f32⟩ : BufTy).Contents (Elt Ideal)) (x8 x9 : (⟨S2000000, .i32⟩ : BufTy).Contents (Elt Ideal)) (x10 : (⟨S1000000, .i1⟩ : BufTy).Contents (Elt Ideal)) (i : S1000000.Idx) :
    val_main_v50 (F := Ideal) x0 x4 x5 x6 x7 x8 x9 x10 i = Cert.Glacier.meltFlux (F := Ideal) (x0 i) (x4 i) ((x10 i).setWidth 32) (x5 i) (x6 i) (val_main_v43 (F := Ideal) x7 x8 x9 i) := by
  rewrite [val_main_v50_apply, val_main_v48_apply, val_main_v47_apply, val_main_v46_apply, val_main_v45_apply,
    val_main_v44_apply, val_main_cst_11_apply, val_main_v49_apply, val_main_cst_12_apply, effPressure_at,
    Cert.Glacier.meltFlux]
  generalize val_main_v43 (F := Ideal) x7 x8 x9 i = u
  rfl

/-- The cube of the effective pressure at a node, (N · N) · N on both sides. -/
theorem pressureCubed_at (x0 x4 x5 : (⟨S1000000, .f32⟩ : BufTy).Contents (Elt Ideal)) (x10 : (⟨S1000000, .i1⟩ : BufTy).Contents (Elt Ideal)) (i : S1000000.Idx) :
    val_main_v52 (F := Ideal) x0 x4 x5 x10 i = Cert.Glacier.pressureCubed (F := Ideal) (x0 i) (x4 i) ((x10 i).setWidth 32) (x5 i) := by
  rewrite [val_main_v52_apply, val_main_v51_apply, effPressure_at, Cert.Glacier.pressureCubed]
  rfl

/-- The conduit size at a node. -/
theorem conduit_at (x0 x4 x5 x6 : (⟨S1000000, .f32⟩ : BufTy).Contents (Elt Ideal)) (x7 : (⟨S2000000, .f32⟩ : BufTy).Contents (Elt Ideal)) (x8 x9 : (⟨S2000000, .i32⟩ : BufTy).Contents (Elt Ideal)) (x10 : (⟨S1000000, .i1⟩ : BufTy).Contents (Elt Ideal)) (i : S1000000.Idx) :
    val_main_v57 (F := Ideal) x0 x4 x5 x6 x7 x8 x9 x10 i = Cert.Glacier.conduit (F := Ideal) (x0 i) (x4 i) ((x10 i).setWidth 32) (x5 i) (x6 i) (val_main_v43 (F := Ideal) x7 x8 x9 i) := by
  rewrite [val_main_v57_apply, val_main_v54_apply, val_main_v53_apply, val_main_cst_13_apply, val_main_v56_apply,
    val_main_v55_apply, val_main_cst_14_apply, meltFlux_at, pressureCubed_at, Cert.Glacier.conduit]
  generalize val_main_v43 (F := Ideal) x7 x8 x9 i = u
  rfl

/-- The melt term at a node. -/
theorem meltTerm_at (x0 x4 x5 x6 : (⟨S1000000, .f32⟩ : BufTy).Contents (Elt Ideal)) (x7 : (⟨S2000000, .f32⟩ : BufTy).Contents (Elt Ideal)) (x8 x9 : (⟨S2000000, .i32⟩ : BufTy).Contents (Elt Ideal)) (x10 : (⟨S1000000, .i1⟩ : BufTy).Contents (Elt Ideal)) (i : S1000000.Idx) :
    val_main_v87 (F := Ideal) x0 x4 x5 x6 x7 x8 x9 x10 i = Cert.Glacier.meltTerm (F := Ideal) (x0 i) (x4 i) ((x10 i).setWidth 32) (x5 i) (x6 i) (val_main_v43 (F := Ideal) x7 x8 x9 i) := by
  rewrite [val_main_v87_apply, val_main_v86_apply, val_main_cst_24_apply, meltFlux_at, Cert.Glacier.meltTerm]
  generalize val_main_v43 (F := Ideal) x7 x8 x9 i = u
  rfl

/-- The closure term at a node. -/
theorem closureTerm_at (x0 x4 x5 x6 : (⟨S1000000, .f32⟩ : BufTy).Contents (Elt Ideal)) (x7 : (⟨S2000000, .f32⟩ : BufTy).Contents (Elt Ideal)) (x8 x9 : (⟨S2000000, .i32⟩ : BufTy).Contents (Elt Ideal)) (x10 : (⟨S1000000, .i1⟩ : BufTy).Contents (Elt Ideal)) (i : S1000000.Idx) :
    val_main_v90 (F := Ideal) x0 x4 x5 x6 x7 x8 x9 x10 i = Cert.Glacier.closureTerm (F := Ideal) (x0 i) (x4 i) ((x10 i).setWidth 32) (x5 i) (x6 i) (val_main_v43 (F := Ideal) x7 x8 x9 i) := by
  rewrite [val_main_v90_apply, val_main_v89_apply, val_main_v88_apply, val_main_cst_25_apply, pressureCubed_at,
    conduit_at, Cert.Glacier.closureTerm]
  generalize val_main_v43 (F := Ideal) x7 x8 x9 i = u
  rfl

/-- The link flux as the reference spells it, against `linkFlux`: tail + head is head + tail, (s · s) · s is
    s · (s · s), and -x is 0 - x. -/
theorem linkFlux_spelling (hh ht len sh st re : Ideal .f32) :
    FloatOps.mulf
        (FloatOps.mulf
          (FloatOps.hostNegf
            (FloatOps.hostDivf
              (FloatOps.mulf
                (FloatOps.mulf
                  (FloatOps.mulf (FloatOps.mulf (Cert.Glacier.lit 0x3F000000#32) (FloatOps.addf st sh))
                    (FloatOps.mulf (Cert.Glacier.lit 0x3F000000#32) (FloatOps.addf st sh)))
                  (FloatOps.mulf (Cert.Glacier.lit 0x3F000000#32) (FloatOps.addf st sh)))
                (Cert.Glacier.lit 0x411CF5C3#32))
              (FloatOps.mulf (Cert.Glacier.lit 0x3CAFAB54#32)
                (FloatOps.addf (Cert.Glacier.lit 0x3F800000#32) (FloatOps.mulf (Cert.Glacier.lit 0x3A83126F#32) re)))))
          (FloatOps.hostDivf (FloatOps.subf hh ht) len))
        len
      = Cert.Glacier.linkFlux hh ht len sh st re := by
  simp only [Cert.Glacier.linkFlux, Cert.Glacier.transmissivity, Cert.Glacier.linkConduit, Ideal.hostNegf_def, Ideal.negf_def,
    Ideal.hostDivf_def, Ideal.divf_def, Ideal.mulf_def, Ideal.addf_def, Ideal.subf_def, Ideal.ofBits_def,
    Ideal.ofBits_zero_f32, zero_sub]
  rw [add_comm st sh, mul_comm (_ * _) (Ideal.ofBits .f32 0x3F000000#32 * (sh + st))]

/-- The flux along a link, from the gathered heads and conduit sizes at its two nodes. -/
theorem linkFlux_at (x0 : (⟨S1000000, .f32⟩ : BufTy).Contents (Elt Ideal)) (x1 x2 : (⟨S2000000, .f32⟩ : BufTy).Contents (Elt Ideal)) (x4 x5 x6 : (⟨S1000000, .f32⟩ : BufTy).Contents (Elt Ideal)) (x7 : (⟨S2000000, .f32⟩ : BufTy).Contents (Elt Ideal)) (x8 x9 : (⟨S2000000, .i32⟩ : BufTy).Contents (Elt Ideal))
    (x10 : (⟨S1000000, .i1⟩ : BufTy).Contents (Elt Ideal)) (i : S2000000.Idx) :
    val_main_v93 (F := Ideal) x0 x1 x2 x4 x5 x6 x7 x8 x9 x10 i
      = Cert.Glacier.linkFlux (F := Ideal) (val_main_v7 (F := Ideal) x0 x4 x9 x10 i) (val_main_v14 (F := Ideal) x0 x4 x8 x10 i) (x2 i)
          (val_main_v71 (F := Ideal) x0 x4 x5 x6 x7 x8 x9 x10 i) (val_main_v64 (F := Ideal) x0 x4 x5 x6 x7 x8 x9 x10 i) (x1 i) := by
  rewrite [val_main_v93_apply, val_main_v92_apply, val_main_v91_apply, val_main_v85_apply, val_main_v78_apply,
    val_main_v76_apply, val_main_v75_apply, val_main_v74_apply, val_main_v73_apply, val_main_cst_19_apply,
    val_main_v72_apply, val_main_v77_apply, val_main_cst_20_apply, val_main_v84_apply, val_main_v83_apply,
    val_main_cst_23_apply, val_main_v82_apply, val_main_v81_apply, val_main_cst_22_apply, val_main_v80_apply,
    val_main_v79_apply, val_main_cst_21_apply, val_main_v16_apply, val_main_v15_apply]
  generalize val_main_v7 (F := Ideal) x0 x4 x9 x10 i = hh
  generalize val_main_v14 (F := Ideal) x0 x4 x8 x10 i = ht
  generalize val_main_v71 (F := Ideal) x0 x4 x5 x6 x7 x8 x9 x10 i = sh
  generalize val_main_v64 (F := Ideal) x0 x4 x5 x6 x7 x8 x9 x10 i = st
  exact linkFlux_spelling hh ht (x2 i) sh st (x1 i)

/-- The residual at a node: the net flux over the area (0 over 1 at a boundary node) minus the melt and closure terms. -/
theorem residual_at (x0 : (⟨S1000000, .f32⟩ : BufTy).Contents (Elt Ideal)) (x1 x2 : (⟨S2000000, .f32⟩ : BufTy).Contents (Elt Ideal)) (x3 x4 x5 x6 : (⟨S1000000, .f32⟩ : BufTy).Contents (Elt Ideal)) (x7 : (⟨S2000000, .f32⟩ : BufTy).Contents (Elt Ideal)) (x8 x9 : (⟨S2000000, .i32⟩ : BufTy).Contents (Elt Ideal))
    (x10 : (⟨S1000000, .i1⟩ : BufTy).Contents (Elt Ideal)) (i : S1000000.Idx) :
    val_main_v105 (F := Ideal) x0 x1 x2 x3 x4 x5 x6 x7 x8 x9 x10 i
      = Cert.Glacier.residual (F := Ideal) (val_main_v100 (F := Ideal) x0 x1 x2 x4 x5 x6 x7 x8 x9 x10 i) ((x10 i).setWidth 32) (x3 i)
          (val_main_v87 (F := Ideal) x0 x4 x5 x6 x7 x8 x9 x10 i) (val_main_v90 (F := Ideal) x0 x4 x5 x6 x7 x8 x9 x10 i) := by
  rewrite [val_main_v105_apply, val_main_v104_apply, val_main_v103_apply, val_main_v101_apply,
    val_main_call3_v1_apply, val_main_call3_v0_apply, val_main_cst_28_apply, val_main_v102_apply,
    val_main_call4_v1_apply, val_main_call4_v0_apply, val_main_cst_29_apply, Cert.Glacier.residual, flag_setWidth]
  generalize val_main_v100 (F := Ideal) x0 x1 x2 x4 x5 x6 x7 x8 x9 x10 i = q
  generalize val_main_v87 (F := Ideal) x0 x4 x5 x6 x7 x8 x9 x10 i = mt
  generalize val_main_v90 (F := Ideal) x0 x4 x5 x6 x7 x8 x9 x10 i = ct
  rfl

end Cert.ReferenceIdeal.RefAt

end
-- ==== Proof.Bridge.lean ====
/-
  The two idealized programs compute one function.

  At the ideal instance the reference's stages (read one operation at a time) and the kernel program's passes are the
  same scalar functions at every node and link, and the gathers and segment sums between them are the same host
  operations applied to equal arrays; so the kernel program's residual array is the reference's result array,
  whatever the arguments: no law is used that fails at an infinity (only commutativity of + and ·, and 0 - x = -x).
-/
import proofs.«154982_j65609920413788_1_alg».proof.Proof.KernelValue
import proofs.«154982_j65609920413788_1_alg».proof.Proof.RefAt
import proofs.«154982_j65609920413788_1_alg».proof.Proof.Gen.ReferenceIdeal.Read

set_option maxRecDepth 16384

noncomputable section

namespace Cert.Bridge

open Idealize.ShloMosaic Idealize.ShloMosaic.TcCoe Idealize.SL.Sem
open Cert.KernelIdeal.Whole Cert.KernelIdeal.HostChain Cert.ReferenceIdeal.Read Cert.ReferenceIdeal.RefAt

variable (x0 : FVec Ideal Cert.KernelIdeal.S1000000 .f32) (x1 x2 : FVec Ideal Cert.KernelIdeal.S2000000 .f32)
  (x3 x4 x5 x6 : FVec Ideal Cert.KernelIdeal.S1000000 .f32) (x7 : FVec Ideal Cert.KernelIdeal.S2000000 .f32)
  (x8 x9 : IVec Cert.KernelIdeal.S2000000 32) (x10 : IVec Cert.KernelIdeal.S1000000 1)

/-- The mean sliding velocity at the nodes is the same host computation in both programs. -/
theorem segMean_eq : segMean (F := Ideal) x7 x8 x9 = val_main_v43 (F := Ideal) x7 x8 x9 := rfl

theorem headA_eq : headA (F := Ideal) x0 x4 x10 = val_main_v0 (F := Ideal) x0 x4 x10 :=
  funext fun i => (head_at x0 x4 x10 i).symm

theorem conduitA_eq : conduitA (F := Ideal) x0 x4 x5 x6 x7 x8 x9 x10 = val_main_v57 (F := Ideal) x0 x4 x5 x6 x7 x8 x9 x10 :=
  funext fun i => by rw [conduit_at, ← segMean_eq]; rfl

theorem meltA_eq : meltA (F := Ideal) x0 x4 x5 x6 x7 x8 x9 x10 = val_main_v87 (F := Ideal) x0 x4 x5 x6 x7 x8 x9 x10 :=
  funext fun i => by rw [meltTerm_at, ← segMean_eq]; rfl

theorem closureA_eq : closureA (F := Ideal) x0 x4 x5 x6 x7 x8 x9 x10 = val_main_v90 (F := Ideal) x0 x4 x5 x6 x7 x8 x9 x10 :=
  funext fun i => by rw [closureTerm_at, ← segMean_eq]; rfl

/-- The head at the links' head nodes. -/
theorem head_head : takeAt (headA (F := Ideal) x0 x4 x10) x9 = val_main_v7 (F := Ideal) x0 x4 x9 x10 := by
  rw [headA_eq]; rfl
/-- The head at the links' tail nodes. -/
theorem head_tail : takeAt (headA (F := Ideal) x0 x4 x10) x8 = val_main_v14 (F := Ideal) x0 x4 x8 x10 := by
  rw [headA_eq]; rfl
/-- The conduit size at the links' head nodes. -/
theorem conduit_head : takeAt (conduitA (F := Ideal) x0 x4 x5 x6 x7 x8 x9 x10) x9 = val_main_v71 (F := Ideal) x0 x4 x5 x6 x7 x8 x9 x10 := by
  rw [conduitA_eq]; rfl
/-- The conduit size at the links' tail nodes. -/
theorem conduit_tail : takeAt (conduitA (F := Ideal) x0 x4 x5 x6 x7 x8 x9 x10) x8 = val_main_v64 (F := Ideal) x0 x4 x5 x6 x7 x8 x9 x10 := by
  rw [conduitA_eq]; rfl

theorem fluxA_eq : fluxA (F := Ideal) x0 x1 x2 x4 x5 x6 x7 x8 x9 x10 = val_main_v93 (F := Ideal) x0 x1 x2 x4 x5 x6 x7 x8 x9 x10 :=
  funext fun i => by
    rw [linkFlux_at, ← head_head, ← head_tail, ← conduit_head, ← conduit_tail]; rfl

theorem netFlux_eq : netFlux (fluxA (F := Ideal) x0 x1 x2 x4 x5 x6 x7 x8 x9 x10) x8 x9
    = val_main_v100 (F := Ideal) x0 x1 x2 x4 x5 x6 x7 x8 x9 x10 := by
  rw [fluxA_eq]; rfl

/-- The kernel program's residual array is the reference's result array. -/
theorem outA_eq : outA (F := Ideal) x0 x1 x2 x3 x4 x5 x6 x7 x8 x9 x10 = val_main_v105 (F := Ideal) x0 x1 x2 x3 x4 x5 x6 x7 x8 x9 x10 :=
  funext fun i => by
    rw [residual_at, ← netFlux_eq, ← meltA_eq, ← closureA_eq]; rfl

end Cert.Bridge

end
-- ==== Proof.lean ====
/- The proof of `Cert.Claim`: the glacier-hydrology kernel program against its reference.

   The three frames: the two kernel programs' runs through their three regions and the host stretches between them,
   and the reference's run, a straight line of host operations. `preserves` is trivial: the idealization rewrote no
   operation. `algebraic`: at the ideal instance the kernel program ends with its result array at the residual
   function of the argument arrays (`Cert.KernelIdeal.Whole.run`), the reference with its result at its last
   stage (`Cert.ReferenceIdeal.Value.run`), and the two are one function of arguments that agree
   (`Cert.Bridge.outA_eq`). The precondition is not used: every step holds on all extended reals. -/
import proofs.«154982_j65609920413788_1_alg».proof.Defs
import proofs.«154982_j65609920413788_1_alg».proof.Proof.Gen.Kernel
import proofs.«154982_j65609920413788_1_alg».proof.Proof.Gen.Kernel.Skeleton
import proofs.«154982_j65609920413788_1_alg».proof.Proof.Gen.Kernel.Launch
import proofs.«154982_j65609920413788_1_alg».proof.Proof.Gen.Kernel.Points
import proofs.«154982_j65609920413788_1_alg».proof.Proof.Gen.Kernel.Frame
import proofs.«154982_j65609920413788_1_alg».proof.Proof.Gen.KernelIdeal
import proofs.«154982_j65609920413788_1_alg».proof.Proof.Gen.KernelIdeal.Skeleton
import proofs.«154982_j65609920413788_1_alg».proof.Proof.Gen.KernelIdeal.Launch
import proofs.«154982_j65609920413788_1_alg».proof.Proof.Gen.KernelIdeal.Points
import proofs.«154982_j65609920413788_1_alg».proof.Proof.Gen.KernelIdeal.Frame
import proofs.«154982_j65609920413788_1_alg».proof.Proof.Gen.ReferenceIdeal
import proofs.«154982_j65609920413788_1_alg».proof.Proof.Gen.Pre_finite_inputs
import proofs.«154982_j65609920413788_1_alg».proof.Proof.Gen.ReferenceIdeal.Run
import proofs.«154982_j65609920413788_1_alg».proof.Proof.Gen.ReferenceIdeal.Read
import proofs.«154982_j65609920413788_1_alg».proof.Proof.KernelValue
import proofs.«154982_j65609920413788_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs run, and end with the residual array of the
    kernel program's arguments. -/
theorem algebraic : Cert.algebraic_KernelIdeal_ReferenceIdeal := by
  intro m ρ m' ρ' _ hagree
  refine ⟨fun c => Cert.KernelIdeal.Whole.outA (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v105_eq, h0, h1, h2, h3, h4, h5, h6, h7, h8, h9, h10]
  exact (Cert.Bridge.outA_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
